-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S100000x3 : Shape := ⟨2, ![100000, 3]⟩
abbrev S3200000x1 : Shape := ⟨2, ![3200000, 1]⟩
abbrev S5x32 : Shape := ⟨2, ![5, 32]⟩
abbrev S32x32 : Shape := ⟨2, ![32, 32]⟩
abbrev S3x32 : Shape := ⟨2, ![3, 32]⟩
abbrev S1x32 : Shape := ⟨2, ![1, 32]⟩
abbrev S32 : Shape := ⟨1, ![32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S3200000x1 : S_.BroadcastsInDim S3200000x1 (![] : Fin 0 → Fin S3200000x1.rank)
  reducesTo_S3200000x1_S_d0_1 : S3200000x1.ReducesTo [0, 1] S_
  bcast_S_S5x32 : S_.BroadcastsInDim S5x32 (![] : Fin 0 → Fin S5x32.rank)
  reducesTo_S5x32_S_d0_1 : S5x32.ReducesTo [0, 1] S_
  bcast_S_S32x32 : S_.BroadcastsInDim S32x32 (![] : Fin 0 → Fin S32x32.rank)
  reducesTo_S32x32_S_d0_1 : S32x32.ReducesTo [0, 1] S_
  bcast_S_S3x32 : S_.BroadcastsInDim S3x32 (![] : Fin 0 → Fin S3x32.rank)
  reducesTo_S3x32_S_d0_1 : S3x32.ReducesTo [0, 1] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S32 .f32) (main_arg15 : FVec F S32x1 .f32) (main_arg16 : FVec F S1 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg15
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S1x32 .f32) (main_arg12 : FVec F S32 .f32) (main_arg13 : FVec F S32 .f32) (main_arg14 : FVec F S32 .f32) (main_arg15 : FVec F S32x1 .f32) (main_arg16 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_v63 main_v67

def fn_part2 {F : FTy → Type} [FloatOps F] (main_arg7 : FVec F S3x32 .f32) (main_arg8 : FVec F S3x32 .f32) (main_arg9 : FVec F S1x32 .f32) (main_arg10 : FVec F S1x32 .f32) (main_arg11 : FVec F S1x32 .f32) (main_arg12 : FVec F S32 .f32) (main_arg13 : FVec F S32 .f32) (main_arg14 : FVec F S32 .f32) (main_arg15 : FVec F S32x1 .f32) (main_arg16 : FVec F S1 .f32) (main_v33 : IVec S_ 1) : IVec S_ 1 :=
  let main_v34 : FVec F S3x32 .f32 := Host.absf main_arg7
  let main_cst_12 : FVec F S_ .f32 := constant S_ .f32 0x7F800000#32
  let main_v35 : FVec F S3x32 .f32 := broadcastInDim S3x32 ![] bcast_S_S3x32 main_cst_12
  let main_v36 : IVec S3x32 1 := cmpf .olt main_v34 main_v35
  let main_c_13 : IVec S_ 1 := constantI S_ 1 1#1
  let main_v37 : IVec S_ 1 := (fun x v => Host.reduce IntOp.andi x v reducesTo_S3x32_S_d0_1 h_S_) main_v36 main_c_13
  let main_v38 : IVec S_ 1 := andi main_v33 main_v37
  let main_v39 : FVec F S3x32 .f32 := Host.absf main_arg8
  let main_cst_14 : FVec F S_ .f32 := constant S_ .f32 0x7F800000#32
  let main_v40 : FVec F S3x32 .f32 := broadcastInDim S3x32 ![] bcast_S_S3x32 main_cst_14
  let main_v41 : IVec S3x32 1 := cmpf .olt main_v39 main_v40
  let main_c_15 : IVec S_ 1 := constantI S_ 1 1#1
  let main_v42 : IVec S_ 1 := (fun x v => Host.reduce IntOp.andi x v reducesTo_S3x32_S_d0_1 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1x32 .f32 := Host.absf main_arg10
  let main_cst_18 : FVec F S_ .f32 := constant S_ .f32 0x7F800000#32
  let main_v50 : FVec F S1x32 .f32 := broadcastInDim S1x32 ![] bcast_S_S1x32 main_cst_18
  fn_part3 (F := F) main_arg11 main_arg12 main_arg13 main_arg14 main_arg15 main_arg16 main_v48 main_v49 main_v50

def fn_part1 {F : FTy → Type} [FloatOps F] (main_arg4 : FVec F S32x32 .f32) (main_arg5 : FVec F S32x32 .f32) (main_arg6 : FVec F S3x32 .f32) (main_arg7 : FVec F S3x32 .f32) (main_arg8 : FVec F S3x32 .f32) (main_arg9 : FVec F S1x32 .f32) (main_arg10 : FVec F S1x32 .f32) (main_arg11 : FVec F S1x32 .f32) (main_arg12 : FVec F S32 .f32) (main_arg13 : FVec F S32 .f32) (main_arg14 : FVec F S32 .f32) (main_arg15 : FVec F S32x1 .f32) (main_arg16 : FVec F S1 .f32) (main_v13 : IVec S_ 1) (main_v16 : IVec S5x32 1) : IVec S_ 1 :=
  let main_c_5 : IVec S_ 1 := constantI S_ 1 1#1
  let main_v17 : IVec S_ 1 := (fun x v => Host.reduce IntOp.andi x v reducesTo_S5x32_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S3x32 .f32 := Host.absf main_arg6
  let main_cst_10 : FVec F S_ .f32 := constant S_ .f32 0x7F800000#32
  let main_v30 : FVec F S3x32 .f32 := broadcastInDim S3x32 ![] bcast_S_S3x32 main_cst_10
  let main_v31 : IVec S3x32 1 := cmpf .olt main_v29 main_v30
  let main_c_11 : IVec S_ 1 := constantI S_ 1 1#1
  let main_v32 : IVec S_ 1 := (fun x v => Host.reduce IntOp.andi x v reducesTo_S3x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x5 .f32) (main_arg1 : FVec F S100000x3 .f32) (main_arg2 : FVec F S3200000x1 .f32) (main_arg3 : FVec F S5x32 .f32) (main_arg4 : FVec F S32x32 .f32) (main_arg5 : FVec F S32x32 .f32) (main_arg6 : FVec F S3x32 .f32) (main_arg7 : FVec F S3x32 .f32) (main_arg8 : FVec F S3x32 .f32) (main_arg9 : FVec F S1x32 .f32) (main_arg10 : FVec F S1x32 .f32) (main_arg11 : FVec F S1x32 .f32) (main_arg12 : FVec F S32 .f32) (main_arg13 : FVec F S32 .f32) (main_arg14 : FVec F S32 .f32) (main_arg15 : FVec F S32x1 .f32) (main_arg16 : FVec F S1 .f32) (main_arg17 : IVec S2x3200000 32) (main_arg18 : IVec S100000 32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S3200000x1 .f32 := Host.absf main_arg2
  let main_cst_2 : FVec F S_ .f32 := constant S_ .f32 0x7F800000#32
  let main_v10 : FVec F S3200000x1 .f32 := broadcastInDim S3200000x1 ![] bcast_S_S3200000x1 main_cst_2
  let main_v11 : IVec S3200000x1 1 := cmpf .olt main_v9 main_v10
  let main_c_3 : IVec S_ 1 := constantI S_ 1 1#1
  let main_v12 : IVec S_ 1 := (fun x v => Host.reduce IntOp.andi x v reducesTo_S3200000x1_S_d0_1 h_S_) main_v11 main_c_3
  let main_v13 : IVec S_ 1 := andi main_v8 main_v12
  let main_v14 : FVec F S5x32 .f32 := Host.absf main_arg3
  let main_cst_4 : FVec F S_ .f32 := constant S_ .f32 0x7F800000#32
  let main_v15 : FVec F S5x32 .f32 := broadcastInDim S5x32 ![] bcast_S_S5x32 main_cst_4
  let main_v16 : IVec S5x32 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x5 : Shape := ⟨2, ![100000, 5]⟩
abbrev S100000x3 : Shape := ⟨2, ![100000, 3]⟩
abbrev S3200000x1 : Shape := ⟨2, ![3200000, 1]⟩
abbrev S5x32 : Shape := ⟨2, ![5, 32]⟩
abbrev S32x32 : Shape := ⟨2, ![32, 32]⟩
abbrev S3x32 : Shape := ⟨2, ![3, 32]⟩
abbrev S1x32 : Shape := ⟨2, ![1, 32]⟩
abbrev S32 : Shape := ⟨1, ![32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x3 : Shape := ⟨2, ![3200000, 3]⟩
abbrev S3200000x5 : Shape := ⟨2, ![3200000, 5]⟩
abbrev S3200000x32 : Shape := ⟨2, ![3200000, 32]⟩
abbrev S8000x5 : Shape := ⟨2, ![8000, 5]⟩
abbrev S8000x3 : Shape := ⟨2, ![8000, 3]⟩
abbrev S8000x1 : Shape := ⟨2, ![8000, 1]⟩
abbrev S8000x32 : Shape := ⟨2, ![8000, 32]⟩
abbrev S100000x32 : Shape := ⟨2, ![100000, 32]⟩
abbrev S1024x32 : Shape := ⟨2, ![1024, 32]⟩
abbrev S100000x1 : Shape := ⟨2, ![100000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 146
  | .vmem => 36
  | .smem => 0
  | _ => 0

abbrev hbmTy0_0 (i : Nat) : BufTy := match i % 128 with
  | 0 => ⟨S100000x5, .f32⟩
  | 1 => ⟨S100000x3, .f32⟩
  | 2 => ⟨S3200000x1, .f32⟩
  | 3 => ⟨S5x32, .f32⟩
  | 4 => ⟨S32x32, .f32⟩
  | 5 => ⟨S32x32, .f32⟩
  | 6 => ⟨S3x32, .f32⟩
  | 7 => ⟨S3x32, .f32⟩
  | 8 => ⟨S3x32, .f32⟩
  | 9 => ⟨S1x32, .f32⟩
  | 10 => ⟨S1x32, .f32⟩
  | 11 => ⟨S1x32, .f32⟩
  | 12 => ⟨S32, .f32⟩
  | 13 => ⟨S32, .f32⟩
  | 14 => ⟨S32, .f32⟩
  | 15 => ⟨S32x1, .f32⟩
  | 16 => ⟨S1, .f32⟩
  | 17 => ⟨S2x3200000, .i32⟩
  | 18 => ⟨S100000, .i32⟩
  | 19 => ⟨S1x3200000, .i32⟩
  | 20 => ⟨S3200000, .i32⟩
  | 21 => ⟨S1x3200000, .i32⟩
  | 22 => ⟨S3200000, .i32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x3, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x3, .f32⟩
  | 41 => ⟨S3200000x3, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x5, .f32⟩
  | 51 => ⟨S1x32, .f32⟩
  | 52 => ⟨S3200000x32, .f32⟩
  | 53 => ⟨S_, .f32⟩
  | 54 => ⟨S100000x32, .f32⟩
  | 55 => ⟨S3200000x1, .i32⟩
  | 56 => ⟨S100000x32, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x32, .f32⟩
  | 66 => ⟨S_, .f32⟩
  | 67 => ⟨S100000x32, .f32⟩
  | 68 => ⟨S3200000x1, .i32⟩
  | 69 => ⟨S100000x32, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x32, .f32⟩
  | 79 => ⟨S1x32, .f32⟩
  | 80 => ⟨S3200000x32, .f32⟩
  | 81 => ⟨S_, .f32⟩
  | 82 => ⟨S100000x32, .f32⟩
  | 83 => ⟨S3200000x1, .i32⟩
  | 84 => ⟨S100000x32, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x32, .f32⟩
  | 94 => ⟨S_, .f32⟩
  | 95 => ⟨S100000x32, .f32⟩
  | 96 => ⟨S3200000x1, .i32⟩
  | 97 => ⟨S100000x32, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x32, .f32⟩
  | 107 => ⟨S1x32, .f32⟩
  | 108 => ⟨S3200000x32, .f32⟩
  | 109 => ⟨S_, .f32⟩
  | 110 => ⟨S100000x32, .f32⟩
  | 111 => ⟨S3200000x1, .i32⟩
  | 112 => ⟨S100000x32, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x32, .f32⟩
  | 122 => ⟨S_, .f32⟩
  | 123 => ⟨S100000x32, .f32⟩
  | 124 => ⟨S3200000x1, .i32⟩
  | 125 => ⟨S100000x32, .f32⟩
  | 126 => ⟨S_, .f32⟩
  | 127 => ⟨S1024x32, .f32⟩
  | _ => ⟨S100000x5, .f32⟩

abbrev hbmTy0_1 (i : Nat) : BufTy := match i % 128 with
  | 0 => ⟨S100000x1, .i32⟩
  | 1 => ⟨S1024x32, .f32⟩
  | 2 => ⟨S_, .f32⟩
  | 3 => ⟨S100000, .f32⟩
  | 4 => ⟨S_, .f32⟩
  | 5 => ⟨S1024, .f32⟩
  | 6 => ⟨S100000x1, .i32⟩
  | 7 => ⟨S1024, .f32⟩
  | 8 => ⟨S_, .f32⟩
  | 9 => ⟨S1024, .f32⟩
  | 10 => ⟨S1024, .f32⟩
  | 11 => ⟨S1024x1, .f32⟩
  | 12 => ⟨S1024x32, .f32⟩
  | 13 => ⟨S1024x32, .f32⟩
  | 14 => ⟨S1024x1, .f32⟩
  | 15 => ⟨S1x1, .f32⟩
  | 16 => ⟨S1024x1, .f32⟩
  | 17 => ⟨S1024x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S8000x5, .f32⟩
  | .local _ .vmem, ⟨1, _⟩ => ⟨S8000x5, .f32⟩
  | .local _ .vmem, ⟨2, _⟩ => ⟨S8000x3, .f32⟩
  | .local _ .vmem, ⟨3, _⟩ => ⟨S8000x3, .f32⟩
  | .local _ .vmem, ⟨4, _⟩ => ⟨S8000x1, .f32⟩
  | .local _ .vmem, ⟨5, _⟩ => ⟨S8000x1, .f32⟩
  | .local _ .vmem, ⟨6, _⟩ => ⟨S5x32, .f32⟩
  | .local _ .vmem, ⟨7, _⟩ => ⟨S3x32, .f32⟩
  | .local _ .vmem, ⟨8, _⟩ => ⟨S1x32, .f32⟩
  | .local _ .vmem, ⟨9, _⟩ => ⟨S1x32, .f32⟩
  | .local _ .vmem, ⟨10, _⟩ => ⟨S8000x32, .f32⟩
  | .local _ .vmem, ⟨11, _⟩ => ⟨S8000x32, .f32⟩
  | .local _ .vmem, ⟨12, _⟩ => ⟨S8000x32, .f32⟩
  | .local _ .vmem, ⟨13, _⟩ => ⟨S8000x32, .f32⟩
  | .local _ .vmem, ⟨14, _⟩ => ⟨S8000x3, .f32⟩
  | .local _ .vmem, ⟨15, _⟩ => ⟨S8000x3, .f32⟩
  | .local _ .vmem, ⟨16, _⟩ => ⟨S8000x1, .f32⟩
  | .local _ .vmem, ⟨17, _⟩ => ⟨S8000x1, .f32⟩
  | .local _ .vmem, ⟨18, _⟩ => ⟨S32x32, .f32⟩
  | .local _ .vmem, ⟨19, _⟩ => ⟨S3x32, .f32⟩
  | .local _ .vmem, ⟨20, _⟩ => ⟨S1x32, .f32⟩
  | .local _ .vmem, ⟨21, _⟩ => ⟨S1x32, .f32⟩
  | .local _ .vmem, ⟨22, _⟩ => ⟨S8000x32, .f32⟩
  | .local _ .vmem, ⟨23, _⟩ => ⟨S8000x32, .f32⟩
  | .local _ .vmem, ⟨24, _⟩ => ⟨S8000x32, .f32⟩
  | .local _ .vmem, ⟨25, _⟩ => ⟨S8000x32, .f32⟩
  | .local _ .vmem, ⟨26, _⟩ => ⟨S8000x3, .f32⟩
  | .local _ .vmem, ⟨27, _⟩ => ⟨S8000x3, .f32⟩
  | .local _ .vmem, ⟨28, _⟩ => ⟨S8000x1, .f32⟩
  | .local _ .vmem, ⟨29, _⟩ => ⟨S8000x1, .f32⟩
  | .local _ .vmem, ⟨30, _⟩ => ⟨S32x32, .f32⟩
  | .local _ .vmem, ⟨31, _⟩ => ⟨S3x32, .f32⟩
  | .local _ .vmem, ⟨32, _⟩ => ⟨S1x32, .f32⟩
  | .local _ .vmem, ⟨33, _⟩ => ⟨S1x32, .f32⟩
  | .local _ .vmem, ⟨34, _⟩ => ⟨S8000x32, .f32⟩
  | .local _ .vmem, ⟨35, _⟩ => ⟨S8000x32, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_c_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_c_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_14 : Ref sig .tc := ⟨.hbm, 98, rfl⟩
abbrev main_v63 : Ref sig .tc := ⟨.hbm, 99, rfl⟩
abbrev main_v64 : Ref sig .tc := ⟨.hbm, 100, rfl⟩
abbrev main_c_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_19 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_20 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_21 : Ref sig .tc := ⟨.hbm, 130, rfl⟩
abbrev main_v88 : Ref sig .tc := ⟨.hbm, 131, rfl⟩
abbrev main_cst_22 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_23 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S32_S1x32 : S32.ShapeCasts S1x32
  inb_S8000x5_S8000x5_0_0 : ∀ a, (![0, 0] : Fin 2 → Nat) a + S8000x5.size a ≤ S8000x5.size a
  h_S8000x5 : 0 < S8000x5.numel
  shapeCasts_S8000x5_S8000x5 : S8000x5.ShapeCasts S8000x5
  bitsLt_bf16_f32 : FTy.bits .bf16 < FTy.bits .f32
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  inb_S8000x1_S8000x1_0_0 : ∀ a, (![0, 0] : Fin 2 → Nat) a + S8000x1.size a ≤ S8000x1.size a
  h_S8000x1 : 0 < S8000x1.numel
  inb_S5x32_S5x32_0_0 : ∀ a, (![0, 0] : Fin 2 → Nat) a + S5x32.size a ≤ S5x32.size a
  h_S5x32 : 0 < S5x32.numel
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  bcast_S_S100000x32 : S_.BroadcastsInDim S100000x32 (![] : Fin 0 → Fin S100000x32.rank)
  shapeCasts_S8000x32_S8000x32 : S8000x32.ShapeCasts S8000x32
  inb_S32x32_S32x32_0_0 : ∀ a, (![0, 0] : Fin 2 → Nat) a + S32x32.size a ≤ S32x32.size a
  h_S32x32 : 0 < S32x32.numel
  bcast_S_S1024x32 : S_.BroadcastsInDim S1024x32 (![] : Fin 0 → Fin S1024x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S100000x3_S3200000x1_S3200000x3_1_0_n_n_0_1_13_wf : GatherDims.WF S100000x3 S3200000x1 S3200000x3 [1] [0] [] [0] [] 1 ![1, 3]
  gather_S100000x5_S3200000x1_S3200000x5_1_0_n_n_0_1_15_wf : GatherDims.WF S100000x5 S3200000x1 S3200000x5 [1] [0] [] [0] [] 1 ![1, 5]
  dot_S8000x5_S5x32_S8000x32_1_0_0_1_n_n_wf : DotDims.WF S8000x5 S5x32 S8000x32 [1] [0] [0] [1] [] []
  dot_S8000x3_S3x32_S8000x32_1_0_0_1_n_n_wf : DotDims.WF S8000x3 S3x32 S8000x32 [1] [0] [0] [1] [] []
  dot_S8000x1_S1x32_S8000x32_1_0_0_1_n_n_wf : DotDims.WF S8000x1 S1x32 S8000x32 [1] [0] [0] [1] [] []
  scatter_S100000x32_S3200000x1_S3200000x32_1_0_0_1_wf : ScatterDims.WF S100000x32 S3200000x1 S3200000x32 [1] [0] [0] 1
  gather_S100000x32_S3200000x1_S3200000x32_1_0_n_n_0_1_132_wf : GatherDims.WF S100000x32 S3200000x1 S3200000x32 [1] [0] [] [0] [] 1 ![1, 32]
  dot_S8000x32_S32x32_S8000x32_1_0_0_1_n_n_wf : DotDims.WF S8000x32 S32x32 S8000x32 [1] [0] [0] [1] [] []
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x5.size a ≤ S3200000x5.size a
  hwx0_0 : ∀ i : grid0.Coords, EltTy.bits .f32 = 32 ∨ (Rect.block (s := S3200000x5) S8000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S3200000x3.size a
  hwx0_1 : ∀ i : grid0.Coords, EltTy.bits .f32 = 32 ∨ (Rect.block (s := S3200000x3) S8000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S3200000x1.size a
  hwx0_2 : ∀ i : grid0.Coords, EltTy.bits .f32 = 32 ∨ (Rect.block (s := S3200000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x32.size a ≤ S5x32.size a
  hwx0_3 : ∀ i : grid0.Coords, EltTy.bits .f32 = 32 ∨ (Rect.block (s := S5x32) S5x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x32.size a ≤ S3x32.size a
  hwx0_4 : ∀ i : grid0.Coords, EltTy.bits .f32 = 32 ∨ (Rect.block (s := S3x32) S3x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x32.size a ≤ S3200000x32.size a
  hwx0_7 : ∀ i : grid0.Coords, EltTy.bits .f32 = 32 ∨ (Rect.block (s := S3200000x32) S8000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S3200000x32.size a
  hwx1_0 : ∀ i : grid1.Coords, EltTy.bits .f32 = 32 ∨ (Rect.block (s := S3200000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x3.size a ≤ S3200000x3.size a
  hwx1_1 : ∀ i : grid1.Coords, EltTy.bits .f32 = 32 ∨ (Rect.block (s := S3200000x3) S8000x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S3200000x1.size a
  hwx1_2 : ∀ i : grid1.Coords, EltTy.bits .f32 = 32 ∨ (Rect.block (s := S3200000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x32.size a ≤ S3x32.size a
  hwx1_4 : ∀ i : grid1.Coords, EltTy.bits .f32 = 32 ∨ (Rect.block (s := S3x32) S3x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x32.size a ≤ S3200000x32.size a
  hwx1_7 : ∀ i : grid1.Coords, EltTy.bits .f32 = 32 ∨ (Rect.block (s := S3200000x32) S8000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S3200000x32.size a
  hwx2_0 : ∀ i : grid2.Coords, EltTy.bits .f32 = 32 ∨ (Rect.block (s := S3200000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x3.size a ≤ S3200000x3.size a
  hwx2_1 : ∀ i : grid2.Coords, EltTy.bits .f32 = 32 ∨ (Rect.block (s := S3200000x3) S8000x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S3200000x1.size a
  hwx2_2 : ∀ i : grid2.Coords, EltTy.bits .f32 = 32 ∨ (Rect.block (s := S3200000x1) S8000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x32.size a ≤ S3x32.size a
  hwx2_4 : ∀ i : grid2.Coords, EltTy.bits .f32 = 32 ∨ (Rect.block (s := S3x32) S3x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x32.size a ≤ S3200000x32.size a
  hwx2_7 : ∀ i : grid2.Coords, EltTy.bits .f32 = 32 ∨ (Rect.block (s := S3200000x32) S8000x32.size (cc2_transform_7 i) (hinb2_7 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S8000x5_S5x32_S8000x32_1_0_0_1_n_n : DotDims S8000x5 S5x32 S8000x32 where
  lhsContracting := [1]
  rhsContracting := [0]
  lhsNonContracting := [0]
  rhsNonContracting := [1]
  lhsBatch := []
  rhsBatch := []
  wf := dot_S8000x5_S5x32_S8000x32_1_0_0_1_n_n_wf
def dot_S8000x3_S3x32_S8000x32_1_0_0_1_n_n : DotDims S8000x3 S3x32 S8000x32 where
  lhsContracting := [1]
  rhsContracting := [0]
  lhsNonContracting := [0]
  rhsNonContracting := [1]
  lhsBatch := []
  rhsBatch := []
  wf := dot_S8000x3_S3x32_S8000x32_1_0_0_1_n_n_wf
def dot_S8000x1_S1x32_S8000x32_1_0_0_1_n_n : DotDims S8000x1 S1x32 S8000x32 where
  lhsContracting := [1]
  rhsContracting := [0]
  lhsNonContracting := [0]
  rhsNonContracting := [1]
  lhsBatch := []
  rhsBatch := []
  wf := dot_S8000x1_S1x32_S8000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v25) S8000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S8000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v47) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S3x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S8000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v69) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S8000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S3x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S8000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x5 : Shape := ⟨2, ![100000, 5]⟩
abbrev S100000x3 : Shape := ⟨2, ![100000, 3]⟩
abbrev S3200000x1 : Shape := ⟨2, ![3200000, 1]⟩
abbrev S5x32 : Shape := ⟨2, ![5, 32]⟩
abbrev S32x32 : Shape := ⟨2, ![32, 32]⟩
abbrev S3x32 : Shape := ⟨2, ![3, 32]⟩
abbrev S1x32 : Shape := ⟨2, ![1, 32]⟩
abbrev S32 : Shape := ⟨1, ![32]⟩
abbrev S32x1 : Shape := ⟨2, ![32, 1]⟩
abbrev S1 : Shape := ⟨1, ![1]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x3 : Shape := ⟨2, ![3200000, 3]⟩
abbrev S3200000x5 : Shape := ⟨2, ![3200000, 5]⟩
abbrev S3200000x32 : Shape := ⟨2, ![3200000, 32]⟩
abbrev S100000x32 : Shape := ⟨2, ![100000, 32]⟩
abbrev S1024x32 : Shape := ⟨2, ![1024, 32]⟩
abbrev S100000x1 : Shape := ⟨2, ![100000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S100000x5, .f32⟩
  | 1 => ⟨S100000x3, .f32⟩
  | 2 => ⟨S3200000x1, .f32⟩
  | 3 => ⟨S5x32, .f32⟩
  | 4 => ⟨S32x32, .f32⟩
  | 5 => ⟨S32x32, .f32⟩
  | 6 => ⟨S3x32, .f32⟩
  | 7 => ⟨S3x32, .f32⟩
  | 8 => ⟨S3x32, .f32⟩
  | 9 => ⟨S1x32, .f32⟩
  | 10 => ⟨S1x32, .f32⟩
  | 11 => ⟨S1x32, .f32⟩
  | 12 => ⟨S32, .f32⟩
  | 13 => ⟨S32, .f32⟩
  | 14 => ⟨S32, .f32⟩
  | 15 => ⟨S32x1, .f32⟩
  | 16 => ⟨S1, .f32⟩
  | 17 => ⟨S2x3200000, .i32⟩
  | 18 => ⟨S100000, .i32⟩
  | 19 => ⟨S1x3200000, .i32⟩
  | 20 => ⟨S3200000, .i32⟩
  | 21 => ⟨S1x3200000, .i32⟩
  | 22 => ⟨S3200000, .i32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x3, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x3, .f32⟩
  | 41 => ⟨S3200000x3, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x5, .f32⟩
  | 51 => ⟨S3200000x32, .f32⟩
  | 52 => ⟨S3200000x32, .f32⟩
  | 53 => ⟨S3200000x32, .f32⟩
  | 54 => ⟨S3200000x32, .f32⟩
  | 55 => ⟨S3200000x32, .f32⟩
  | 56 => ⟨S1x32, .f32⟩
  | 57 => ⟨S3200000x32, .f32⟩
  | 58 => ⟨S3200000x32, .f32⟩
  | 59 => ⟨S3200000x32, .f32⟩
  | 60 => ⟨S_, .f32⟩
  | 61 => ⟨S100000x32, .f32⟩
  | 62 => ⟨S3200000x1, .i32⟩
  | 63 => ⟨S100000x32, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x32, .f32⟩
  | 73 => ⟨S_, .f32⟩
  | 74 => ⟨S100000x32, .f32⟩
  | 75 => ⟨S3200000x1, .i32⟩
  | 76 => ⟨S100000x32, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x32, .f32⟩
  | 86 => ⟨S3200000x32, .f32⟩
  | 87 => ⟨S3200000x32, .f32⟩
  | 88 => ⟨S3200000x32, .f32⟩
  | 89 => ⟨S3200000x32, .f32⟩
  | 90 => ⟨S3200000x32, .f32⟩
  | 91 => ⟨S1x32, .f32⟩
  | 92 => ⟨S3200000x32, .f32⟩
  | 93 => ⟨S3200000x32, .f32⟩
  | 94 => ⟨S3200000x32, .f32⟩
  | 95 => ⟨S_, .f32⟩
  | 96 => ⟨S100000x32, .f32⟩
  | 97 => ⟨S3200000x1, .i32⟩
  | 98 => ⟨S100000x32, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x32, .f32⟩
  | 108 => ⟨S_, .f32⟩
  | 109 => ⟨S100000x32, .f32⟩
  | 110 => ⟨S3200000x1, .i32⟩
  | 111 => ⟨S100000x32, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000x32, .f32⟩
  | 121 => ⟨S3200000x32, .f32⟩
  | 122 => ⟨S3200000x32, .f32⟩
  | 123 => ⟨S3200000x32, .f32⟩
  | 124 => ⟨S3200000x32, .f32⟩
  | 125 => ⟨S3200000x32, .f32⟩
  | 126 => ⟨S1x32, .f32⟩
  | 127 => ⟨S3200000x32, .f32⟩
  | _ => ⟨S100000x5, .f32⟩

abbrev hbmTy0_1 (i : Nat) : BufTy := match i % 128 with
  | 0 => ⟨S3200000x32, .f32⟩
  | 1 => ⟨S3200000x32, .f32⟩
  | 2 => ⟨S_, .f32⟩
  | 3 => ⟨S100000x32, .f32⟩
  | 4 => ⟨S3200000x1, .i32⟩
  | 5 => ⟨S100000x32, .f32⟩
  | 6 => ⟨S_, .i32⟩
  | 7 => ⟨S3200000, .i32⟩
  | 8 => ⟨S3200000, .i1⟩
  | 9 => ⟨S_, .i32⟩
  | 10 => ⟨S3200000, .i32⟩
  | 11 => ⟨S3200000, .i32⟩
  | 12 => ⟨S3200000, .i32⟩
  | 13 => ⟨S3200000x1, .i32⟩
  | 14 => ⟨S3200000x32, .f32⟩
  | 15 => ⟨S_, .f32⟩
  | 16 => ⟨S100000x32, .f32⟩
  | 17 => ⟨S3200000x1, .i32⟩
  | 18 => ⟨S100000x32, .f32⟩
  | 19 => ⟨S_, .f32⟩
  | 20 => ⟨S1024x32, .f32⟩
  | 21 => ⟨S100000x1, .i32⟩
  | 22 => ⟨S1024x32, .f32⟩
  | 23 => ⟨S_, .f32⟩
  | 24 => ⟨S100000, .f32⟩
  | 25 => ⟨S_, .f32⟩
  | 26 => ⟨S1024, .f32⟩
  | 27 => ⟨S100000x1, .i32⟩
  | 28 => ⟨S1024, .f32⟩
  | 29 => ⟨S_, .f32⟩
  | 30 => ⟨S1024, .f32⟩
  | 31 => ⟨S1024, .f32⟩
  | 32 => ⟨S1024x1, .f32⟩
  | 33 => ⟨S1024x32, .f32⟩
  | 34 => ⟨S1024x32, .f32⟩
  | 35 => ⟨S1024x1, .f32⟩
  | 36 => ⟨S1x1, .f32⟩
  | 37 => ⟨S1024x1, .f32⟩
  | 38 => ⟨S1024x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_11 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_14 : Ref sig .tc := ⟨.hbm, 112, rfl⟩
abbrev main_v77 : Ref sig .tc := ⟨.hbm, 113, rfl⟩
abbrev main_v78 : Ref sig .tc := ⟨.hbm, 114, rfl⟩
abbrev main_c_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_16 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_17 : Ref sig .tc := ⟨.hbm, 134, rfl⟩
abbrev main_v96 : Ref sig .tc := ⟨.hbm, 135, rfl⟩
abbrev main_v97 : Ref sig .tc := ⟨.hbm, 136, rfl⟩
abbrev main_c_18 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_19 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_20 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_21 : Ref sig .tc := ⟨.hbm, 151, rfl⟩
abbrev main_v109 : Ref sig .tc := ⟨.hbm, 152, rfl⟩
abbrev main_cst_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_23 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S100000x32 : S_.BroadcastsInDim S100000x32 (![] : Fin 0 → Fin S100000x32.rank)
  bcast_S_S1024x32 : S_.BroadcastsInDim S1024x32 (![] : Fin 0 → Fin S1024x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S100000x3_S3200000x1_S3200000x3_1_0_n_n_0_1_13_wf : GatherDims.WF S100000x3 S3200000x1 S3200000x3 [1] [0] [] [0] [] 1 ![1, 3]
  gather_S100000x5_S3200000x1_S3200000x5_1_0_n_n_0_1_15_wf : GatherDims.WF S100000x5 S3200000x1 S3200000x5 [1] [0] [] [0] [] 1 ![1, 5]
  dot_S3200000x5_S5x32_S3200000x32_1_0_0_1_n_n_wf : DotDims.WF S3200000x5 S5x32 S3200000x32 [1] [0] [0] [1] [] []
  dot_S3200000x3_S3x32_S3200000x32_1_0_0_1_n_n_wf : DotDims.WF S3200000x3 S3x32 S3200000x32 [1] [0] [0] [1] [] []
  dot_S3200000x1_S1x32_S3200000x32_1_0_0_1_n_n_wf : DotDims.WF S3200000x1 S1x32 S3200000x32 [1] [0] [0] [1] [] []
  scatter_S100000x32_S3200000x1_S3200000x32_1_0_0_1_wf : ScatterDims.WF S100000x32 S3200000x1 S3200000x32 [1] [0] [0] 1
  gather_S100000x32_S3200000x1_S3200000x32_1_0_n_n_0_1_132_wf : GatherDims.WF S100000x32 S3200000x1 S3200000x32 [1] [0] [] [0] [] 1 ![1, 32]
  dot_S3200000x32_S32x32_S3200000x32_1_0_0_1_n_n_wf : DotDims.WF S3200000x32 S32x32 S3200000x32 [1] [0] [0] [1] [] []
  scatter_S1024x32_S100000x1_S100000x32_1_0_0_1_wf : ScatterDims.WF S1024x32 S100000x1 S100000x32 [1] [0] [0] 1
  scatter_S1024_S100000x1_S100000_n_0_0_1_wf : ScatterDims.WF S1024 S100000x1 S100000 [] [0] [0] 1
  dot_S1024x32_S32x1_S1024x1_1_0_0_1_n_n_wf : DotDims.WF S1024x32 S32x1 S1024x1 [1] [0] [0] [1] [] []

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S3200000x5_S5x32_S3200000x32_1_0_0_1_n_n : DotDims S3200000x5 S5x32 S3200000x32 where
  lhsContracting := [1]
  rhsContracting := [0]
  lhsNonContracting := [0]
  rhsNonContracting := [1]
  lhsBatch := []
  rhsBatch := []
  wf := dot_S3200000x5_S5x32_S3200000x32_1_0_0_1_n_n_wf
def dot_S3200000x3_S3x32_S3200000x32_1_0_0_1_n_n : DotDims S3200000x3 S3x32 S3200000x32 where
  lhsContracting := [1]
  rhsContracting := [0]
  lhsNonContracting := [0]
  rhsNonContracting := [1]
  lhsBatch := []
  rhsBatch := []
  wf := dot_S3200000x3_S3x32_S3200000x32_1_0_0_1_n_n_wf
def dot_S3200000x1_S1x32_S3200000x32_1_0_0_1_n_n : DotDims S3200000x1 S1x32 S3200000x32 where
  lhsContracting := [1]
  rhsContracting := [0]
  lhsNonContracting := [0]
  rhsNonContracting := [1]
  lhsBatch := []
  rhsBatch := []
  wf := dot_S3200000x1_S1x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def scatter_S1024x32_S100000x1_S100000x32_1_0_0_1 : ScatterDims S1024x32 S100000x1 S100000x32 where
  updateWindowDims := [1]
  insertedWindowDims := [0]
  scatterDimsToOperandDims := [0]
  indexVectorDim := 1
  wf := scatter_S1024x32_S100000x1_S100000x32_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KRun.lean ====
/-
  The idealized kernel's run with its two results kept: every weakly fair execution of @main terminates with
  the prediction array and the pooled graph representation at the contents the last stretch of host operations
  leaves (the fold of @main's segments from the launch memory), and the argument arrays as launched.  The launch over
  the segments is the one that gives the frame; here the final thread state is read at the two result buffers as well.
-/
import proofs.«125535_j73607149519515_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two result buffers read off the last boundary's contents. -/
theorem run_results : θ_run defs (onTc (τ := τ) (main (F := F))) ⟨m, fun _ => 0, ρ⟩ (fun r => ∀ c : Dev nD,
      r.2.mem ((c.tc : Thread nD τ).loc main_v100) = W7 m ρ c (Proc.devRef .tc main_v100)
      ∧ r.2.mem ((c.tc : Thread nD τ).loc main_v96) = W7 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v100 (by decide)),
       h c _ (mem_uc main_v96 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c)⟩)

end Cert.KernelIdeal.Hand

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.MsgSpec.lean ====
/-
  One message layer, read at an entry, on the extended reals.

  For source features H [n, d], relative positions P [n, 3], edge attributes A [n, 1], weights Wx [d, e], Wp [3, e],
  We [1, e] and a bias b of length e, the message of edge p and channel q is

      tanh (((∑ k, H[p, k] · Wx[k, q] + ∑ k, P[p, k] · Wp[k, q]) + ∑ k, A[p, k] · We[k, q]) + b[q]).

  The vector unit computes it on a block of rows (operands rounded to a narrower float, three products into zero
  accumulators, a one-row bias repeated down the rows) and the host on the whole array (three dot_generals, the bias
  vector laid as a row and repeated); both are this entry.  The sums are added in the same order on both sides, so no
  law of the extended reals beyond reading each operation at an index is used.
-/
import proofs.«125535_j73607149519515_1_alg».proof.Proof.LibLayout
import proofs.«125535_j73607149519515_1_alg».proof.Proof.LibHostDot

noncomputable section

namespace Cert.Msg

open Idealize.ShloMosaic Idealize.ShloMosaic.ValueIdx

/-! ## The free axes of a plain matrix product's dimension record -/

/-- With no batch axis and the left operand's axis 0 free, the left index's coordinate 0 is the result's row. -/
theorem lhs_row {M K N : ℕ} (d : DotDims ⟨2, ![M, K]⟩ ⟨2, ![K, N]⟩ ⟨2, ![M, N]⟩)
    (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  rw [Fin.val_cast]
  refine congrArg (fun x => (j x).val) (Fin.ext ?_)
  show d.lhsBatch.length + List.idxOf (0 : Fin 2) d.lhsNonContracting = 0
  rw [hb, hn]; rfl

/-- With no batch axis, one free axis on the left and the right operand's axis 1 free, the right index's coordinate 1 is
    the result's column. -/
theorem rhs_col {M K N : ℕ} (d : DotDims ⟨2, ![M, K]⟩ ⟨2, ![K, N]⟩ ⟨2, ![M, N]⟩)
    (hb : d.rhsBatch = []) (hlb : d.lhsBatch = []) (hln : d.lhsNonContracting = [0]) (hn : d.rhsNonContracting = [1])
    (j : (⟨2, ![M, N]⟩ : Shape).Idx) (k : d.contr.Idx) :
    (d.rhsIdx j k 1).val = (j 1).val := by
  unfold DotDims.rhsIdx
  rw [dif_neg (by rw [hb]; exact List.not_mem_nil), dif_pos (by rw [hn]; exact List.mem_singleton.mpr rfl)]
  rw [Fin.val_cast]
  refine congrArg (fun x => (j x).val) (Fin.ext ?_)
  show d.lhsBatch.length + d.lhsNonContracting.length + List.idxOf (1 : Fin 2) d.rhsNonContracting = 1
  rw [hlb, hln, hn]; rfl

/-! ## The message at an entry -/

/-- Entry (p, q) of tanh (H · Wx + P · Wp + A · We + b), the three products added in this order. -/
def msgAt {n d e : ℕ} (H : FVec Ideal ⟨2, ![n, d]⟩ .f32) (P : FVec Ideal ⟨2, ![n, 3]⟩ .f32) (A : FVec Ideal ⟨2, ![n, 1]⟩ .f32)
    (Wx : FVec Ideal ⟨2, ![d, e]⟩ .f32) (Wp : FVec Ideal ⟨2, ![3, e]⟩ .f32) (We : FVec Ideal ⟨2, ![1, e]⟩ .f32)
    (b : Fin e → Ideal .f32) (p : Fin n) (q : Fin e) : Ideal .f32 :=
  Ideal.tanh (((∑ k : Fin d, H (ix2 p k) * Wx (ix2 k q) + ∑ k : Fin 3, P (ix2 p k) * Wp (ix2 k q))
    + ∑ k : Fin 1, A (ix2 p k) * We (ix2 k q)) + b q)

/-- The whole message array: entry i is the message of row i 0 and channel i 1. -/
def msg {n d e : ℕ} (H : FVec Ideal ⟨2, ![n, d]⟩ .f32) (P : FVec Ideal ⟨2, ![n, 3]⟩ .f32) (A : FVec Ideal ⟨2, ![n, 1]⟩ .f32)
    (Wx : FVec Ideal ⟨2, ![d, e]⟩ .f32) (Wp : FVec Ideal ⟨2, ![3, e]⟩ .f32) (We : FVec Ideal ⟨2, ![1, e]⟩ .f32)
    (b : Fin e → Ideal .f32) : FVec Ideal ⟨2, ![n, e]⟩ .f32 := fun i =>
  msgAt H P A Wx Wp We b ⟨(i 0).val, (i 0).isLt⟩ ⟨(i 1).val, (i 1).isLt⟩

/-- The message of row p of a block of rows is the message of row p' of the whole arrays, when the block's rows are
    the arrays' rows from p' − p on and the weights and the bias are the same. -/
theorem msgAt_congr {r n d e : ℕ}
    (x0 : FVec Ideal ⟨2, ![r, d]⟩ .f32) (x1 : FVec Ideal ⟨2, ![r, 3]⟩ .f32) (x2 : FVec Ideal ⟨2, ![r, 1]⟩ .f32)
    (x3 : FVec Ideal ⟨2, ![d, e]⟩ .f32) (x4 : FVec Ideal ⟨2, ![3, e]⟩ .f32) (x5 : FVec Ideal ⟨2, ![1, e]⟩ .f32)
    (x6 : FVec Ideal ⟨2, ![1, e]⟩ .f32)
    (H : FVec Ideal ⟨2, ![n, d]⟩ .f32) (P : FVec Ideal ⟨2, ![n, 3]⟩ .f32) (A : FVec Ideal ⟨2, ![n, 1]⟩ .f32)
    (Wx : FVec Ideal ⟨2, ![d, e]⟩ .f32) (Wp : FVec Ideal ⟨2, ![3, e]⟩ .f32) (We : FVec Ideal ⟨2, ![1, e]⟩ .f32)
    (b : FVec Ideal ⟨2, ![1, e]⟩ .f32)
    (p : Fin r) (q : Fin e) (p' : Fin n) (q' : Fin e) (hq : q'.val = q.val)
    (h0 : ∀ k, x0 (ix2 p k) = H (ix2 p' k)) (h1 : ∀ k, x1 (ix2 p k) = P (ix2 p' k)) (h2 : ∀ k, x2 (ix2 p k) = A (ix2 p' k))
    (h3 : ∀ k, x3 (ix2 k q) = Wx (ix2 k q)) (h4 : ∀ k, x4 (ix2 k q) = Wp (ix2 k q)) (h5 : ∀ k, x5 (ix2 k q) = We (ix2 k q))
    (h6 : x6 (ix2 (0 : Fin 1) q) = b (ix2 (0 : Fin 1) q)) :
    msgAt x0 x1 x2 x3 x4 x5 (fun q => x6 (ix2 (0 : Fin 1) q)) p q
      = msgAt H P A Wx Wp We (fun q => b (ix2 (0 : Fin 1) q)) p' q' := by
  obtain rfl : q' = q := Fin.ext hq
  unfold msgAt
  simp only [h0, h1, h2, h3, h4, h5, h6]

/-- The facts of a plain rows-by-columns dimension record that the entry-wise reading uses; each holds of a literal
    record by `rfl`. -/
structure Plain {M K N : ℕ} (d : DotDims ⟨2, ![M, K]⟩ ⟨2, ![K, N]⟩ ⟨2, ![M, N]⟩) : Prop where
  rank : d.contr.rank = 1
  lc : d.lhsContracting = [1]
  rc : d.rhsContracting = [0]
  lb : d.lhsBatch = []
  rb : d.rhsBatch = []
  ln : d.lhsNonContracting = [0]
  rn : d.rhsNonContracting = [1]

/-- A block of rows on the vector unit: the message of row p of the block, channel q. -/
theorem kernel_apply {r d e : ℕ} {ψ : FTy}
    (D1 : DotDims ⟨2, ![r, d]⟩ ⟨2, ![d, e]⟩ ⟨2, ![r, e]⟩) (D2 : DotDims ⟨2, ![r, 3]⟩ ⟨2, ![3, e]⟩ ⟨2, ![r, e]⟩)
    (D3 : DotDims ⟨2, ![r, 1]⟩ ⟨2, ![1, e]⟩ ⟨2, ![r, e]⟩)
    (h1 : Plain D1) (s1 : D1.contr.size ⟨0, by rw [h1.rank]; omega⟩ = d)
    (h2 : Plain D2) (s2 : D2.contr.size ⟨0, by rw [h2.rank]; omega⟩ = 3)
    (h3 : Plain D3) (s3 : D3.contr.size ⟨0, by rw [h3.rank]; omega⟩ = 1)
    (hψ : ψ.bits < FTy.f32.bits)
    (x0 : FVec Ideal ⟨2, ![r, d]⟩ .f32) (x1 : FVec Ideal ⟨2, ![r, 3]⟩ .f32) (x2 : FVec Ideal ⟨2, ![r, 1]⟩ .f32)
    (w0 : FVec Ideal ⟨2, ![d, e]⟩ .f32) (w1 : FVec Ideal ⟨2, ![3, e]⟩ .f32) (w2 : FVec Ideal ⟨2, ![1, e]⟩ .f32)
    (b : FVec Ideal ⟨2, ![1, e]⟩ .f32)
    (c0 : (⟨2, ![r, d]⟩ : Shape).ShapeCasts ⟨2, ![r, d]⟩) (c1 : (⟨2, ![r, 3]⟩ : Shape).ShapeCasts ⟨2, ![r, 3]⟩)
    (cb : (⟨2, ![1, e]⟩ : Shape).ShapeCasts ⟨2, ![1, e]⟩) (hb : (⟨2, ![1, e]⟩ : Shape).Broadcasts ⟨2, ![r, e]⟩)
    (p : Fin r) (q : Fin e) :
    tanh (addf (addf (addf
        (matmul D1 none (truncf ψ (shapeCast ⟨2, ![r, d]⟩ x0 c0) hψ) (truncf ψ w0 hψ) (constant ⟨2, ![r, e]⟩ .f32 0x00000000#32))
        (matmul D2 none (truncf ψ (shapeCast ⟨2, ![r, 3]⟩ x1 c1) hψ) (truncf ψ w1 hψ) (constant ⟨2, ![r, e]⟩ .f32 0x00000000#32)))
        (matmul D3 none (truncf ψ x2 hψ) (truncf ψ w2 hψ) (constant ⟨2, ![r, e]⟩ .f32 0x00000000#32)))
        (broadcastTo ⟨2, ![r, e]⟩ (shapeCast ⟨2, ![1, e]⟩ b cb) hb)) (ix2 p q)
      = msgAt x0 x1 x2 w0 w1 w2 (fun q => b (ix2 (0 : Fin 1) q)) p q := by
  show Ideal.tanh _ = _
  rw [addf_apply, addf_apply, addf_apply,
    Cert.LibLayout.matmul_rows_cols_apply D1 h1.rank s1 h1.lc h1.rc (lhs_row D1 h1.lb h1.ln) (rhs_col D1 h1.rb h1.lb h1.ln h1.rn) none _ _ p q,
    Cert.LibLayout.matmul_rows_cols_apply D2 h2.rank s2 h2.lc h2.rc (lhs_row D2 h2.lb h2.ln) (rhs_col D2 h2.rb h2.lb h2.ln h2.rn) none _ _ p q,
    Cert.LibLayout.matmul_rows_cols_apply D3 h3.rank s3 h3.lc h3.rc (lhs_row D3 h3.lb h3.ln) (rhs_col D3 h3.rb h3.lb h3.ln h3.rn) none _ _ p q,
    broadcastTo_1b_ab_apply _ hb p q, shapeCast_self, shapeCast_self, shapeCast_self]
  rfl

/-- The host's spelling on the whole array — three dot_generals added in order, the bias vector laid as a row by a
    broadcast along a new leading axis and repeated down the rows, tanh — at entry (p, q). -/
theorem host_apply {n d e : ℕ}
    (D1 : DotDims ⟨2, ![n, d]⟩ ⟨2, ![d, e]⟩ ⟨2, ![n, e]⟩) (D2 : DotDims ⟨2, ![n, 3]⟩ ⟨2, ![3, e]⟩ ⟨2, ![n, e]⟩)
    (D3 : DotDims ⟨2, ![n, 1]⟩ ⟨2, ![1, e]⟩ ⟨2, ![n, e]⟩)
    (h1 : Plain D1) (s1 : D1.contr.size ⟨0, by rw [h1.rank]; omega⟩ = d)
    (h2 : Plain D2) (s2 : D2.contr.size ⟨0, by rw [h2.rank]; omega⟩ = 3)
    (h3 : Plain D3) (s3 : D3.contr.size ⟨0, by rw [h3.rank]; omega⟩ = 1)
    (H : FVec Ideal ⟨2, ![n, d]⟩ .f32) (P : FVec Ideal ⟨2, ![n, 3]⟩ .f32) (A : FVec Ideal ⟨2, ![n, 1]⟩ .f32)
    (Wx : FVec Ideal ⟨2, ![d, e]⟩ .f32) (Wp : FVec Ideal ⟨2, ![3, e]⟩ .f32) (We : FVec Ideal ⟨2, ![1, e]⟩ .f32)
    (b : FVec Ideal ⟨1, ![e]⟩ .f32)
    (g1 : (⟨1, ![e]⟩ : Shape).BroadcastsInDim ⟨2, ![1, e]⟩ (![1] : Fin 1 → Fin 2))
    (g2 : (⟨2, ![1, e]⟩ : Shape).BroadcastsInDim ⟨2, ![n, e]⟩ (![0, 1] : Fin 2 → Fin 2))
    (p : Fin n) (q : Fin e) :
    Host.tanh (addf (addf (addf (Host.dotGeneral D1 none H Wx) (Host.dotGeneral D2 none P Wp)) (Host.dotGeneral D3 none A We))
        (broadcastInDim ⟨2, ![n, e]⟩ ![0, 1] g2 (broadcastInDim ⟨2, ![1, e]⟩ ![1] g1 b))) (ix2 p q)
      = msgAt H P A Wx Wp We (fun q => b (ix1 q)) p q := by
  show Ideal.tanh _ = _
  rw [addf_apply, addf_apply, addf_apply,
    Cert.LibHostDot.dotGeneral_rows_cols_apply D1 h1.rank s1 h1.lc h1.rc (lhs_row D1 h1.lb h1.ln) (rhs_col D1 h1.rb h1.lb h1.ln h1.rn) none H Wx p q,
    Cert.LibHostDot.dotGeneral_rows_cols_apply D2 h2.rank s2 h2.lc h2.rc (lhs_row D2 h2.lb h2.ln) (rhs_col D2 h2.rb h2.lb h2.ln h2.rn) none P Wp p q,
    Cert.LibHostDot.dotGeneral_rows_cols_apply D3 h3.rank s3 h3.lc h3.rc (lhs_row D3 h3.lb h3.ln) (rhs_col D3 h3.rb h3.lb h3.ln h3.rn) none A We p q,
    broadcastInDim_apply _ g2 _ (ix2 p q) (ix2 (0 : Fin 1) q) (fun c => by
      match c with
      | ⟨0, _⟩ => show (0 : Nat) = if (1 : Nat) = 1 then 0 else _; rw [if_pos rfl]
      | ⟨1, _⟩ => show q.val = if e = 1 then 0 else q.val; split <;> [(have := q.isLt; omega); rfl]),
    broadcastInDim_apply _ g1 b (ix2 (0 : Fin 1) q) (ix1 q) (fun c => by
      match c with
      | ⟨0, _⟩ => show q.val = if e = 1 then 0 else q.val; split <;> [(have := q.isLt; omega); rfl])]
  rfl

end Cert.Msg

end
-- ==== Proof.Region0.lean ====
/-
  What the message kernel of layer 0 leaves in its result array, as one function of the arrays the region finds.

  The grid has 400 points; point t works on rows 8000·t … 8000·t + 7999 of the three per-edge arrays (source features,
  relative positions, edge attributes) and on the whole of the three weight matrices and of the bias row, and writes
  back rows 8000·t … 8000·t + 7999 of the result.  Entry (r, q) of the result is therefore the message of edge r and
  channel q computed from row r of the per-edge arrays: the 400 blocks tile the 3,200,000 rows.
-/
import proofs.«125535_j73607149519515_1_alg».proof.Proof.Gen.KernelIdeal.Frame
import proofs.«125535_j73607149519515_1_alg».proof.Proof.MsgSpec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p of the block and channel q is the message of that row. -/
theorem pay_apply (x0 : Vec Ideal S8000x5 .f32) (x1 : Vec Ideal S8000x3 .f32) (x2 : Vec Ideal S8000x1 .f32)
    (x3 : Vec Ideal S5x32 .f32) (x4 : Vec Ideal S3x32 .f32) (x5 : Vec Ideal S1x32 .f32) (x6 : Vec Ideal S1x32 .f32)
    (p : Fin 8000) (q : Fin 32) :
    k0_pay1 x0 x1 x2 x3 x4 x5 x6 (ix2 p q) = Msg.msgAt x0 x1 x2 x3 x4 x5 (fun q => x6 (ix2 (0 : Fin 1) q)) p q :=
  Msg.kernel_apply dot_S8000x5_S5x32_S8000x32_1_0_0_1_n_n dot_S8000x3_S3x32_S8000x32_1_0_0_1_n_n
    dot_S8000x1_S1x32_S8000x32_1_0_0_1_n_n ⟨rfl, rfl, rfl, rfl, rfl, rfl, rfl⟩ rfl ⟨rfl, rfl, rfl, rfl, rfl, rfl, rfl⟩ rfl
    ⟨rfl, rfl, rfl, rfl, rfl, rfl, rfl⟩ rfl bitsLt_bf16_f32 x0 x1 x2 x3 x4 x5 x6 shapeCasts_S8000x5_S8000x5
    shapeCasts_S8000x3_S8000x3 shapeCasts_S1x32_S1x32 broadcasts_S1x32_S8000x32 p q

/-- The printed index maps over the grid: the per-edge windows and the result window are at block t along the rows;
    the weights and the bias are at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Every block of rows is some point's. -/
theorem idx_onto : ∀ b : Fin 400, ∃ t : Fin cfg0.N, t.val = b.val :=
  fun b => ⟨⟨b.val, by rw [show cfg0.N = 400 from N_0]; exact b.isLt⟩, rfl⟩

/-! ## Each input window's block at a point, read off its array -/

/-- Window 0's block at point t holds rows 8000·t … of its array. -/
theorem blk0_apply (c : Dev nD) (t : Fin cfg0.N) (x : S8000x5.Idx) (k : S3200000x5.Idx)
    (hk0 : (k 0).val = 8000 * t.val + (x 0).val) (hk1 : (k 1).val = (x 1).val) :
    (iblk0 V c 0 t : Vec Ideal S8000x5 .f32) x = (V c main_v25 : S3200000x5.Idx → Elt Ideal .f32) k := by
  obtain ⟨h0, h1⟩ := (idx_facts t).1
  unfold iblk0
  rw [View.read_apply]
  show V c main_v25 _ = V c main_v25 _
  refine congrArg (V c main_v25) (funext fun a => Fin.ext ?_)
  match a with
  | ⟨0, _⟩ => show win0_0.index t 0 * 8000 + 1 * (x 0).val = (k 0).val; rw [h0, hk0]; omega
  | ⟨1, _⟩ => show win0_0.index t 1 * 5 + 1 * (x 1).val = (k 1).val; rw [h1, hk1]; omega

/-- Window 1's block at point t holds rows 8000·t … of its array. -/
theorem blk1_apply (c : Dev nD) (t : Fin cfg0.N) (x : S8000x3.Idx) (k : S3200000x3.Idx)
    (hk0 : (k 0).val = 8000 * t.val + (x 0).val) (hk1 : (k 1).val = (x 1).val) :
    (iblk0 V c 1 t : Vec Ideal S8000x3 .f32) x = (V c main_v18 : S3200000x3.Idx → Elt Ideal .f32) k := by
  obtain ⟨h0, h1⟩ := (idx_facts t).2.1
  unfold iblk0
  rw [View.read_apply]
  show V c main_v18 _ = V c main_v18 _
  refine congrArg (V c main_v18) (funext fun a => Fin.ext ?_)
  match a with
  | ⟨0, _⟩ => show win0_1.index t 0 * 8000 + 1 * (x 0).val = (k 0).val; rw [h0, hk0]; omega
  | ⟨1, _⟩ => show win0_1.index t 1 * 3 + 1 * (x 1).val = (k 1).val; rw [h1, hk1]; omega

/-- Window 2's block at point t holds rows 8000·t … of its array. -/
theorem blk2_apply (c : Dev nD) (t : Fin cfg0.N) (x : S8000x1.Idx) (k : S3200000x1.Idx)
    (hk0 : (k 0).val = 8000 * t.val + (x 0).val) (hk1 : (k 1).val = (x 1).val) :
    (iblk0 V c 2 t : Vec Ideal S8000x1 .f32) x = (V c main_arg2 : S3200000x1.Idx → Elt Ideal .f32) k := by
  obtain ⟨h0, h1⟩ := (idx_facts t).2.2.1
  unfold iblk0
  rw [View.read_apply]
  show V c main_arg2 _ = V c main_arg2 _
  refine congrArg (V c main_arg2) (funext fun a => Fin.ext ?_)
  match a with
  | ⟨0, _⟩ => show win0_2.index t 0 * 8000 + 1 * (x 0).val = (k 0).val; rw [h0, hk0]; omega
  | ⟨1, _⟩ => show win0_2.index t 1 * 1 + 1 * (x 1).val = (k 1).val; rw [h1, hk1]; omega

/-- Window 3's block at every point is its whole array. -/
theorem blk3_apply (c : Dev nD) (t : Fin cfg0.N) (x : S5x32.Idx) :
    (iblk0 V c 3 t : Vec Ideal S5x32 .f32) x = (V c main_arg3 : S5x32.Idx → Elt Ideal .f32) x := by
  obtain ⟨h0, h1⟩ := (idx_facts t).2.2.2.1
  unfold iblk0
  rw [View.read_apply]
  show V c main_arg3 _ = V c main_arg3 _
  refine congrArg (V c main_arg3) (funext fun a => Fin.ext ?_)
  match a with
  | ⟨0, _⟩ => show win0_3.index t 0 * 5 + 1 * (x 0).val = (x 0).val; rw [h0]; omega
  | ⟨1, _⟩ => show win0_3.index t 1 * 32 + 1 * (x 1).val = (x 1).val; rw [h1]; omega

/-- Window 4's block at every point is its whole array. -/
theorem blk4_apply (c : Dev nD) (t : Fin cfg0.N) (x : S3x32.Idx) :
    (iblk0 V c 4 t : Vec Ideal S3x32 .f32) x = (V c main_arg6 : S3x32.Idx → Elt Ideal .f32) x := by
  obtain ⟨h0, h1⟩ := (idx_facts t).2.2.2.2.1
  unfold iblk0
  rw [View.read_apply]
  show V c main_arg6 _ = V c main_arg6 _
  refine congrArg (V c main_arg6) (funext fun a => Fin.ext ?_)
  match a with
  | ⟨0, _⟩ => show win0_4.index t 0 * 3 + 1 * (x 0).val = (x 0).val; rw [h0]; omega
  | ⟨1, _⟩ => show win0_4.index t 1 * 32 + 1 * (x 1).val = (x 1).val; rw [h1]; omega

/-- Window 5's block at every point is its whole array. -/
theorem blk5_apply (c : Dev nD) (t : Fin cfg0.N) (x : S1x32.Idx) :
    (iblk0 V c 5 t : Vec Ideal S1x32 .f32) x = (V c main_arg9 : S1x32.Idx → Elt Ideal .f32) x := by
  obtain ⟨h0, h1⟩ := (idx_facts t).2.2.2.2.2.1
  unfold iblk0
  rw [View.read_apply]
  show V c main_arg9 _ = V c main_arg9 _
  refine congrArg (V c main_arg9) (funext fun a => Fin.ext ?_)
  match a with
  | ⟨0, _⟩ => show win0_5.index t 0 * 1 + 1 * (x 0).val = (x 0).val; rw [h0]; omega
  | ⟨1, _⟩ => show win0_5.index t 1 * 32 + 1 * (x 1).val = (x 1).val; rw [h1]; omega

/-- Window 6's block at every point is its whole array. -/
theorem blk6_apply (c : Dev nD) (t : Fin cfg0.N) (x : S1x32.Idx) :
    (iblk0 V c 6 t : Vec Ideal S1x32 .f32) x = (V c main_v26 : S1x32.Idx → Elt Ideal .f32) x := by
  obtain ⟨h0, h1⟩ := (idx_facts t).2.2.2.2.2.2.1
  unfold iblk0
  rw [View.read_apply]
  show V c main_v26 _ = V c main_v26 _
  refine congrArg (V c main_v26) (funext fun a => Fin.ext ?_)
  match a with
  | ⟨0, _⟩ => show win0_6.index t 0 * 1 + 1 * (x 0).val = (x 0).val; rw [h0]; omega
  | ⟨1, _⟩ => show win0_6.index t 1 * 32 + 1 * (x 1).val = (x 1).val; rw [h1]; omega

/-! ## The result array -/

/-- The array the region leaves: entry (r, q) is the message of edge r, channel q, from the arrays as the region
    finds them. -/
def G (c : Dev nD) : S3200000x32.Idx → Elt Ideal .f32 :=
  Msg.msg (V c main_v25 : S3200000x5.Idx → Elt Ideal .f32) (V c main_v18 : S3200000x3.Idx → Elt Ideal .f32)
    (V c main_arg2 : S3200000x1.Idx → Elt Ideal .f32) (V c main_arg3 : S5x32.Idx → Elt Ideal .f32)
    (V c main_arg6 : S3x32.Idx → Elt Ideal .f32) (V c main_arg9 : S1x32.Idx → Elt Ideal .f32)
    (fun q => (V c main_v26 : S1x32.Idx → Elt Ideal .f32) (ix2 (0 : Fin 1) q))

/-- What point t writes back is block t of that array. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S8000x5) hz, View.ld_unit_zero (S := S8000x3) hz, View.ld_unit_zero (S := S8000x1) hz,
    View.ld_unit_zero (S := S5x32) hz, View.ld_unit_zero (S := S3x32) hz, View.ld_unit_zero (S := S1x32) hz]
  obtain ⟨h0, h1⟩ := (idx_facts t).2.2.2.2.2.2.2
  funext j
  obtain ⟨p, q, rfl⟩ : ∃ (p : Fin 8000) (q : Fin 32), j = ix2 p q := ⟨j 0, j 1, eq_ix2 j⟩
  refine (pay_apply (iblk0 V c 0 t) (iblk0 V c 1 t) (iblk0 V c 2 t) (iblk0 V c 3 t) (iblk0 V c 4 t)
    (iblk0 V c 5 t) (iblk0 V c 6 t) p q).trans ?_
  rw [View.read_apply]
  have e0 : ((((cfg0.win 7).blk t).view.emb (ix2 p q)) 0).val = 8000 * t.val + p.val := by
    show win0_7.index t 0 * 8000 + 1 * p.val = _; rw [h0]; omega
  have e1 : ((((cfg0.win 7).blk t).view.emb (ix2 p q)) 1).val = q.val := by
    show win0_7.index t 1 * 32 + 1 * q.val = _; rw [h1]; omega
  exact Msg.msgAt_congr (r := 8000) (n := 3200000) (d := 5) (e := 32)
    (iblk0 V c 0 t : Vec Ideal S8000x5 .f32) (iblk0 V c 1 t : Vec Ideal S8000x3 .f32) (iblk0 V c 2 t : Vec Ideal S8000x1 .f32)
    (iblk0 V c 3 t : Vec Ideal S5x32 .f32) (iblk0 V c 4 t : Vec Ideal S3x32 .f32) (iblk0 V c 5 t : Vec Ideal S1x32 .f32)
    (iblk0 V c 6 t : Vec Ideal S1x32 .f32)
    (V c main_v25 : S3200000x5.Idx → Elt Ideal .f32) (V c main_v18 : S3200000x3.Idx → Elt Ideal .f32)
    (V c main_arg2 : S3200000x1.Idx → Elt Ideal .f32) (V c main_arg3 : S5x32.Idx → Elt Ideal .f32)
    (V c main_arg6 : S3x32.Idx → Elt Ideal .f32) (V c main_arg9 : S1x32.Idx → Elt Ideal .f32)
    (V c main_v26 : S1x32.Idx → Elt Ideal .f32) p q ⟨_, (((cfg0.win 7).blk t).view.emb (ix2 p q) 0).isLt⟩
    ⟨_, (((cfg0.win 7).blk t).view.emb (ix2 p q) 1).isLt⟩ e1
    (fun k => blk0_apply V c t (ix2 p k) (ix2 ⟨_, (((cfg0.win 7).blk t).view.emb (ix2 p q) 0).isLt⟩ k) e0 rfl)
    (fun k => blk1_apply V c t (ix2 p k) (ix2 ⟨_, (((cfg0.win 7).blk t).view.emb (ix2 p q) 0).isLt⟩ k) e0 rfl)
    (fun k => blk2_apply V c t (ix2 p k) (ix2 ⟨_, (((cfg0.win 7).blk t).view.emb (ix2 p q) 0).isLt⟩ k) e0 rfl)
    (fun k => blk3_apply V c t (ix2 k q)) (fun k => blk4_apply V c t (ix2 k q)) (fun k => blk5_apply V c t (ix2 k q))
    (blk6_apply V c t (ix2 (0 : Fin 1) q))

/-- An index of the result array is in point t's block iff its row is among the block's. -/
theorem mem_blk (t : Fin cfg0.N) (i : S3200000x32.Idx) :
    i ∈ ((cfg0.win 7).blk t).view.set ↔ ∀ a : Fin 2, win0_7.index t a * S8000x32.size a ≤ (i a).val ∧ (i a).val < win0_7.index t a * S8000x32.size a + S8000x32.size a := by
  show i ∈ ((View.whole main_v27).slice (win0_7.rect t)).set ↔ _
  rw [View.set_slice_whole, Rect.mem_set_unit]
  exact Iff.rfl

/-- The blocks cover the array: row r is in the block of point r / 8000. -/
theorem cover (i : S3200000x32.Idx) : ∃ t : Fin cfg0.N, (cfg0.win 7).flush t = true ∧ i ∈ ((cfg0.win 7).blk t).view.set := by
  have hi0 : (i 0).val < 3200000 := (i 0).isLt
  have hi1 : (i 1).val < 32 := (i 1).isLt
  obtain ⟨t, ht⟩ := idx_onto ⟨(i 0).val / 8000, by omega⟩
  obtain ⟨h0, h1⟩ := (idx_facts t).2.2.2.2.2.2.2
  refine ⟨t, flush0_7 t, ?_⟩
  rw [mem_blk]
  intro a
  match a with
  | ⟨0, _⟩ => show win0_7.index t (0 : Fin 2) * 8000 ≤ (i 0).val ∧ (i 0).val < win0_7.index t (0 : Fin 2) * 8000 + 8000
              rw [h0, ht]; show (i 0).val / 8000 * 8000 ≤ (i 0).val ∧ (i 0).val < (i 0).val / 8000 * 8000 + 8000; omega
  | ⟨1, _⟩ => show win0_7.index t (1 : Fin 2) * 32 ≤ (i 1).val ∧ (i 1).val < win0_7.index t (1 : Fin 2) * 32 + 32
              rw [h1]; omega

/-- The result array after the region. -/
theorem final (c : Dev nD) : (dat0 V c).arrAt 7 cfg0.N = G V c :=
  (dat0 V c).arrAt_eq_of_cover 7 (G V c) (fun t _ => flushed_eq V c t) (cover)

/-- The same, with the arrays the region finds named. -/
theorem final_of (c : Dev nD) (H : S3200000x5.Idx → Elt Ideal .f32) (P : S3200000x3.Idx → Elt Ideal .f32)
    (A : S3200000x1.Idx → Elt Ideal .f32) (Wx : S5x32.Idx → Elt Ideal .f32) (Wp : S3x32.Idx → Elt Ideal .f32)
    (We : S1x32.Idx → Elt Ideal .f32) (b : S1x32.Idx → Elt Ideal .f32)
    (h0 : V c main_v25 = H) (h1 : V c main_v18 = P) (h2 : V c main_arg2 = A) (h3 : V c main_arg3 = Wx)
    (h4 : V c main_arg6 = Wp) (h5 : V c main_arg9 = We) (h6 : V c main_v26 = b) :
    (dat0 V c).arrAt 7 cfg0.N = Msg.msg H P A Wx Wp We (fun q => b (ix2 (0 : Fin 1) q)) := by
  subst h0 h1 h2 h3 h4 h5 h6
  exact final V c

end Cert.KernelIdeal.Region0

end
-- ==== Proof.Region1.lean ====
/-
  What the message kernel of layer 1 leaves in its result array, as one function of the arrays the region finds.

  The grid has 400 points; point t works on rows 8000·t … 8000·t + 7999 of the three per-edge arrays (source features,
  relative positions, edge attributes) and on the whole of the three weight matrices and of the bias row, and writes
  back rows 8000·t … 8000·t + 7999 of the result.  Entry (r, q) of the result is therefore the message of edge r and
  channel q computed from row r of the per-edge arrays: the 400 blocks tile the 3,200,000 rows.
-/
import proofs.«125535_j73607149519515_1_alg».proof.Proof.Gen.KernelIdeal.Frame
import proofs.«125535_j73607149519515_1_alg».proof.Proof.MsgSpec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p of the block and channel q is the message of that row. -/
theorem pay_apply (x0 : Vec Ideal S8000x32 .f32) (x1 : Vec Ideal S8000x3 .f32) (x2 : Vec Ideal S8000x1 .f32)
    (x3 : Vec Ideal S32x32 .f32) (x4 : Vec Ideal S3x32 .f32) (x5 : Vec Ideal S1x32 .f32) (x6 : Vec Ideal S1x32 .f32)
    (p : Fin 8000) (q : Fin 32) :
    k1_pay1 x0 x1 x2 x3 x4 x5 x6 (ix2 p q) = Msg.msgAt x0 x1 x2 x3 x4 x5 (fun q => x6 (ix2 (0 : Fin 1) q)) p q :=
  Msg.kernel_apply dot_S8000x32_S32x32_S8000x32_1_0_0_1_n_n dot_S8000x3_S3x32_S8000x32_1_0_0_1_n_n
    dot_S8000x1_S1x32_S8000x32_1_0_0_1_n_n ⟨rfl, rfl, rfl, rfl, rfl, rfl, rfl⟩ rfl ⟨rfl, rfl, rfl, rfl, rfl, rfl, rfl⟩ rfl
    ⟨rfl, rfl, rfl, rfl, rfl, rfl, rfl⟩ rfl bitsLt_bf16_f32 x0 x1 x2 x3 x4 x5 x6 shapeCasts_S8000x32_S8000x32
    shapeCasts_S8000x3_S8000x3 shapeCasts_S1x32_S1x32 broadcasts_S1x32_S8000x32 p q

/-- The printed index maps over the grid: the per-edge windows and the result window are at block t along the rows;
    the weights and the bias are at block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Every block of rows is some point's. -/
theorem idx_onto : ∀ b : Fin 400, ∃ t : Fin cfg1.N, t.val = b.val :=
  fun b => ⟨⟨b.val, by rw [show cfg1.N = 400 from N_1]; exact b.isLt⟩, rfl⟩

/-! ## Each input window's block at a point, read off its array -/

/-- Window 0's block at point t holds rows 8000·t … of its array. -/
theorem blk0_apply (c : Dev nD) (t : Fin cfg1.N) (x : S8000x32.Idx) (k : S3200000x32.Idx)
    (hk0 : (k 0).val = 8000 * t.val + (x 0).val) (hk1 : (k 1).val = (x 1).val) :
    (iblk1 V c 0 t : Vec Ideal S8000x32 .f32) x = (V c main_v47 : S3200000x32.Idx → Elt Ideal .f32) k := by
  obtain ⟨h0, h1⟩ := (idx_facts t).1
  unfold iblk1
  rw [View.read_apply]
  show V c main_v47 _ = V c main_v47 _
  refine congrArg (V c main_v47) (funext fun a => Fin.ext ?_)
  match a with
  | ⟨0, _⟩ => show win1_0.index t 0 * 8000 + 1 * (x 0).val = (k 0).val; rw [h0, hk0]; omega
  | ⟨1, _⟩ => show win1_0.index t 1 * 32 + 1 * (x 1).val = (k 1).val; rw [h1, hk1]; omega

/-- Window 1's block at point t holds rows 8000·t … of its array. -/
theorem blk1_apply (c : Dev nD) (t : Fin cfg1.N) (x : S8000x3.Idx) (k : S3200000x3.Idx)
    (hk0 : (k 0).val = 8000 * t.val + (x 0).val) (hk1 : (k 1).val = (x 1).val) :
    (iblk1 V c 1 t : Vec Ideal S8000x3 .f32) x = (V c main_v18 : S3200000x3.Idx → Elt Ideal .f32) k := by
  obtain ⟨h0, h1⟩ := (idx_facts t).2.1
  unfold iblk1
  rw [View.read_apply]
  show V c main_v18 _ = V c main_v18 _
  refine congrArg (V c main_v18) (funext fun a => Fin.ext ?_)
  match a with
  | ⟨0, _⟩ => show win1_1.index t 0 * 8000 + 1 * (x 0).val = (k 0).val; rw [h0, hk0]; omega
  | ⟨1, _⟩ => show win1_1.index t 1 * 3 + 1 * (x 1).val = (k 1).val; rw [h1, hk1]; omega

/-- Window 2's block at point t holds rows 8000·t … of its array. -/
theorem blk2_apply (c : Dev nD) (t : Fin cfg1.N) (x : S8000x1.Idx) (k : S3200000x1.Idx)
    (hk0 : (k 0).val = 8000 * t.val + (x 0).val) (hk1 : (k 1).val = (x 1).val) :
    (iblk1 V c 2 t : Vec Ideal S8000x1 .f32) x = (V c main_arg2 : S3200000x1.Idx → Elt Ideal .f32) k := by
  obtain ⟨h0, h1⟩ := (idx_facts t).2.2.1
  unfold iblk1
  rw [View.read_apply]
  show V c main_arg2 _ = V c main_arg2 _
  refine congrArg (V c main_arg2) (funext fun a => Fin.ext ?_)
  match a with
  | ⟨0, _⟩ => show win1_2.index t 0 * 8000 + 1 * (x 0).val = (k 0).val; rw [h0, hk0]; omega
  | ⟨1, _⟩ => show win1_2.index t 1 * 1 + 1 * (x 1).val = (k 1).val; rw [h1, hk1]; omega

/-- Window 3's block at every point is its whole array. -/
theorem blk3_apply (c : Dev nD) (t : Fin cfg1.N) (x : S32x32.Idx) :
    (iblk1 V c 3 t : Vec Ideal S32x32 .f32) x = (V c main_arg4 : S32x32.Idx → Elt Ideal .f32) x := by
  obtain ⟨h0, h1⟩ := (idx_facts t).2.2.2.1
  unfold iblk1
  rw [View.read_apply]
  show V c main_arg4 _ = V c main_arg4 _
  refine congrArg (V c main_arg4) (funext fun a => Fin.ext ?_)
  match a with
  | ⟨0, _⟩ => show win1_3.index t 0 * 32 + 1 * (x 0).val = (x 0).val; rw [h0]; omega
  | ⟨1, _⟩ => show win1_3.index t 1 * 32 + 1 * (x 1).val = (x 1).val; rw [h1]; omega

/-- Window 4's block at every point is its whole array. -/
theorem blk4_apply (c : Dev nD) (t : Fin cfg1.N) (x : S3x32.Idx) :
    (iblk1 V c 4 t : Vec Ideal S3x32 .f32) x = (V c main_arg7 : S3x32.Idx → Elt Ideal .f32) x := by
  obtain ⟨h0, h1⟩ := (idx_facts t).2.2.2.2.1
  unfold iblk1
  rw [View.read_apply]
  show V c main_arg7 _ = V c main_arg7 _
  refine congrArg (V c main_arg7) (funext fun a => Fin.ext ?_)
  match a with
  | ⟨0, _⟩ => show win1_4.index t 0 * 3 + 1 * (x 0).val = (x 0).val; rw [h0]; omega
  | ⟨1, _⟩ => show win1_4.index t 1 * 32 + 1 * (x 1).val = (x 1).val; rw [h1]; omega

/-- Window 5's block at every point is its whole array. -/
theorem blk5_apply (c : Dev nD) (t : Fin cfg1.N) (x : S1x32.Idx) :
    (iblk1 V c 5 t : Vec Ideal S1x32 .f32) x = (V c main_arg10 : S1x32.Idx → Elt Ideal .f32) x := by
  obtain ⟨h0, h1⟩ := (idx_facts t).2.2.2.2.2.1
  unfold iblk1
  rw [View.read_apply]
  show V c main_arg10 _ = V c main_arg10 _
  refine congrArg (V c main_arg10) (funext fun a => Fin.ext ?_)
  match a with
  | ⟨0, _⟩ => show win1_5.index t 0 * 1 + 1 * (x 0).val = (x 0).val; rw [h0]; omega
  | ⟨1, _⟩ => show win1_5.index t 1 * 32 + 1 * (x 1).val = (x 1).val; rw [h1]; omega

/-- Window 6's block at every point is its whole array. -/
theorem blk6_apply (c : Dev nD) (t : Fin cfg1.N) (x : S1x32.Idx) :
    (iblk1 V c 6 t : Vec Ideal S1x32 .f32) x = (V c main_v48 : S1x32.Idx → Elt Ideal .f32) x := by
  obtain ⟨h0, h1⟩ := (idx_facts t).2.2.2.2.2.2.1
  unfold iblk1
  rw [View.read_apply]
  show V c main_v48 _ = V c main_v48 _
  refine congrArg (V c main_v48) (funext fun a => Fin.ext ?_)
  match a with
  | ⟨0, _⟩ => show win1_6.index t 0 * 1 + 1 * (x 0).val = (x 0).val; rw [h0]; omega
  | ⟨1, _⟩ => show win1_6.index t 1 * 32 + 1 * (x 1).val = (x 1).val; rw [h1]; omega

/-! ## The result array -/

/-- The array the region leaves: entry (r, q) is the message of edge r, channel q, from the arrays as the region
    finds them. -/
def G (c : Dev nD) : S3200000x32.Idx → Elt Ideal .f32 :=
  Msg.msg (V c main_v47 : S3200000x32.Idx → Elt Ideal .f32) (V c main_v18 : S3200000x3.Idx → Elt Ideal .f32)
    (V c main_arg2 : S3200000x1.Idx → Elt Ideal .f32) (V c main_arg4 : S32x32.Idx → Elt Ideal .f32)
    (V c main_arg7 : S3x32.Idx → Elt Ideal .f32) (V c main_arg10 : S1x32.Idx → Elt Ideal .f32)
    (fun q => (V c main_v48 : S1x32.Idx → Elt Ideal .f32) (ix2 (0 : Fin 1) q))

/-- What point t writes back is block t of that array. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S8000x32) hz, View.ld_unit_zero (S := S8000x3) hz, View.ld_unit_zero (S := S8000x1) hz,
    View.ld_unit_zero (S := S32x32) hz, View.ld_unit_zero (S := S3x32) hz, View.ld_unit_zero (S := S1x32) hz]
  obtain ⟨h0, h1⟩ := (idx_facts t).2.2.2.2.2.2.2
  funext j
  obtain ⟨p, q, rfl⟩ : ∃ (p : Fin 8000) (q : Fin 32), j = ix2 p q := ⟨j 0, j 1, eq_ix2 j⟩
  refine (pay_apply (iblk1 V c 0 t) (iblk1 V c 1 t) (iblk1 V c 2 t) (iblk1 V c 3 t) (iblk1 V c 4 t)
    (iblk1 V c 5 t) (iblk1 V c 6 t) p q).trans ?_
  rw [View.read_apply]
  have e0 : ((((cfg1.win 7).blk t).view.emb (ix2 p q)) 0).val = 8000 * t.val + p.val := by
    show win1_7.index t 0 * 8000 + 1 * p.val = _; rw [h0]; omega
  have e1 : ((((cfg1.win 7).blk t).view.emb (ix2 p q)) 1).val = q.val := by
    show win1_7.index t 1 * 32 + 1 * q.val = _; rw [h1]; omega
  exact Msg.msgAt_congr (r := 8000) (n := 3200000) (d := 32) (e := 32)
    (iblk1 V c 0 t : Vec Ideal S8000x32 .f32) (iblk1 V c 1 t : Vec Ideal S8000x3 .f32) (iblk1 V c 2 t : Vec Ideal S8000x1 .f32)
    (iblk1 V c 3 t : Vec Ideal S32x32 .f32) (iblk1 V c 4 t : Vec Ideal S3x32 .f32) (iblk1 V c 5 t : Vec Ideal S1x32 .f32)
    (iblk1 V c 6 t : Vec Ideal S1x32 .f32)
    (V c main_v47 : S3200000x32.Idx → Elt Ideal .f32) (V c main_v18 : S3200000x3.Idx → Elt Ideal .f32)
    (V c main_arg2 : S3200000x1.Idx → Elt Ideal .f32) (V c main_arg4 : S32x32.Idx → Elt Ideal .f32)
    (V c main_arg7 : S3x32.Idx → Elt Ideal .f32) (V c main_arg10 : S1x32.Idx → Elt Ideal .f32)
    (V c main_v48 : S1x32.Idx → Elt Ideal .f32) p q ⟨_, (((cfg1.win 7).blk t).view.emb (ix2 p q) 0).isLt⟩
    ⟨_, (((cfg1.win 7).blk t).view.emb (ix2 p q) 1).isLt⟩ e1
    (fun k => blk0_apply V c t (ix2 p k) (ix2 ⟨_, (((cfg1.win 7).blk t).view.emb (ix2 p q) 0).isLt⟩ k) e0 rfl)
    (fun k => blk1_apply V c t (ix2 p k) (ix2 ⟨_, (((cfg1.win 7).blk t).view.emb (ix2 p q) 0).isLt⟩ k) e0 rfl)
    (fun k => blk2_apply V c t (ix2 p k) (ix2 ⟨_, (((cfg1.win 7).blk t).view.emb (ix2 p q) 0).isLt⟩ k) e0 rfl)
    (fun k => blk3_apply V c t (ix2 k q)) (fun k => blk4_apply V c t (ix2 k q)) (fun k => blk5_apply V c t (ix2 k q))
    (blk6_apply V c t (ix2 (0 : Fin 1) q))

/-- An index of the result array is in point t's block iff its row is among the block's. -/
theorem mem_blk (t : Fin cfg1.N) (i : S3200000x32.Idx) :
    i ∈ ((cfg1.win 7).blk t).view.set ↔ ∀ a : Fin 2, win1_7.index t a * S8000x32.size a ≤ (i a).val ∧ (i a).val < win1_7.index t a * S8000x32.size a + S8000x32.size a := by
  show i ∈ ((View.whole main_v49).slice (win1_7.rect t)).set ↔ _
  rw [View.set_slice_whole, Rect.mem_set_unit]
  exact Iff.rfl

/-- The blocks cover the array: row r is in the block of point r / 8000. -/
theorem cover (i : S3200000x32.Idx) : ∃ t : Fin cfg1.N, (cfg1.win 7).flush t = true ∧ i ∈ ((cfg1.win 7).blk t).view.set := by
  have hi0 : (i 0).val < 3200000 := (i 0).isLt
  have hi1 : (i 1).val < 32 := (i 1).isLt
  obtain ⟨t, ht⟩ := idx_onto ⟨(i 0).val / 8000, by omega⟩
  obtain ⟨h0, h1⟩ := (idx_facts t).2.2.2.2.2.2.2
  refine ⟨t, flush1_7 t, ?_⟩
  rw [mem_blk]
  intro a
  match a with
  | ⟨0, _⟩ => show win1_7.index t (0 : Fin 2) * 8000 ≤ (i 0).val ∧ (i 0).val < win1_7.index t (0 : Fin 2) * 8000 + 8000
              rw [h0, ht]; show (i 0).val / 8000 * 8000 ≤ (i 0).val ∧ (i 0).val < (i 0).val / 8000 * 8000 + 8000; omega
  | ⟨1, _⟩ => show win1_7.index t (1 : Fin 2) * 32 ≤ (i 1).val ∧ (i 1).val < win1_7.index t (1 : Fin 2) * 32 + 32
              rw [h1]; omega

/-- The result array after the region. -/
theorem final (c : Dev nD) : (dat1 V c).arrAt 7 cfg1.N = G V c :=
  (dat1 V c).arrAt_eq_of_cover 7 (G V c) (fun t _ => flushed_eq V c t) (cover)

/-- The same, with the arrays the region finds named. -/
theorem final_of (c : Dev nD) (H : S3200000x32.Idx → Elt Ideal .f32) (P : S3200000x3.Idx → Elt Ideal .f32)
    (A : S3200000x1.Idx → Elt Ideal .f32) (Wx : S32x32.Idx → Elt Ideal .f32) (Wp : S3x32.Idx → Elt Ideal .f32)
    (We : S1x32.Idx → Elt Ideal .f32) (b : S1x32.Idx → Elt Ideal .f32)
    (h0 : V c main_v47 = H) (h1 : V c main_v18 = P) (h2 : V c main_arg2 = A) (h3 : V c main_arg4 = Wx)
    (h4 : V c main_arg7 = Wp) (h5 : V c main_arg10 = We) (h6 : V c main_v48 = b) :
    (dat1 V c).arrAt 7 cfg1.N = Msg.msg H P A Wx Wp We (fun q => b (ix2 (0 : Fin 1) q)) := by
  subst h0 h1 h2 h3 h4 h5 h6
  exact final V c

end Cert.KernelIdeal.Region1

end
-- ==== Proof.Region2.lean ====
/-
  What the message kernel of layer 2 leaves in its result array, as one function of the arrays the region finds.

  The grid has 400 points; point t works on rows 8000·t … 8000·t + 7999 of the three per-edge arrays (source features,
  relative positions, edge attributes) and on the whole of the three weight matrices and of the bias row, and writes
  back rows 8000·t … 8000·t + 7999 of the result.  Entry (r, q) of the result is therefore the message of edge r and
  channel q computed from row r of the per-edge arrays: the 400 blocks tile the 3,200,000 rows.
-/
import proofs.«125535_j73607149519515_1_alg».proof.Proof.Gen.KernelIdeal.Frame
import proofs.«125535_j73607149519515_1_alg».proof.Proof.MsgSpec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p of the block and channel q is the message of that row. -/
theorem pay_apply (x0 : Vec Ideal S8000x32 .f32) (x1 : Vec Ideal S8000x3 .f32) (x2 : Vec Ideal S8000x1 .f32)
    (x3 : Vec Ideal S32x32 .f32) (x4 : Vec Ideal S3x32 .f32) (x5 : Vec Ideal S1x32 .f32) (x6 : Vec Ideal S1x32 .f32)
    (p : Fin 8000) (q : Fin 32) :
    k2_pay1 x0 x1 x2 x3 x4 x5 x6 (ix2 p q) = Msg.msgAt x0 x1 x2 x3 x4 x5 (fun q => x6 (ix2 (0 : Fin 1) q)) p q :=
  Msg.kernel_apply dot_S8000x32_S32x32_S8000x32_1_0_0_1_n_n dot_S8000x3_S3x32_S8000x32_1_0_0_1_n_n
    dot_S8000x1_S1x32_S8000x32_1_0_0_1_n_n ⟨rfl, rfl, rfl, rfl, rfl, rfl, rfl⟩ rfl ⟨rfl, rfl, rfl, rfl, rfl, rfl, rfl⟩ rfl
    ⟨rfl, rfl, rfl, rfl, rfl, rfl, rfl⟩ rfl bitsLt_bf16_f32 x0 x1 x2 x3 x4 x5 x6 shapeCasts_S8000x32_S8000x32
    shapeCasts_S8000x3_S8000x3 shapeCasts_S1x32_S1x32 broadcasts_S1x32_S8000x32 p q

/-- The printed index maps over the grid: the per-edge windows and the result window are at block t along the rows;
    the weights and the bias are at block 0. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Every block of rows is some point's. -/
theorem idx_onto : ∀ b : Fin 400, ∃ t : Fin cfg2.N, t.val = b.val :=
  fun b => ⟨⟨b.val, by rw [show cfg2.N = 400 from N_2]; exact b.isLt⟩, rfl⟩

/-! ## Each input window's block at a point, read off its array -/

/-- Window 0's block at point t holds rows 8000·t … of its array. -/
theorem blk0_apply (c : Dev nD) (t : Fin cfg2.N) (x : S8000x32.Idx) (k : S3200000x32.Idx)
    (hk0 : (k 0).val = 8000 * t.val + (x 0).val) (hk1 : (k 1).val = (x 1).val) :
    (iblk2 V c 0 t : Vec Ideal S8000x32 .f32) x = (V c main_v69 : S3200000x32.Idx → Elt Ideal .f32) k := by
  obtain ⟨h0, h1⟩ := (idx_facts t).1
  unfold iblk2
  rw [View.read_apply]
  show V c main_v69 _ = V c main_v69 _
  refine congrArg (V c main_v69) (funext fun a => Fin.ext ?_)
  match a with
  | ⟨0, _⟩ => show win2_0.index t 0 * 8000 + 1 * (x 0).val = (k 0).val; rw [h0, hk0]; omega
  | ⟨1, _⟩ => show win2_0.index t 1 * 32 + 1 * (x 1).val = (k 1).val; rw [h1, hk1]; omega

/-- Window 1's block at point t holds rows 8000·t … of its array. -/
theorem blk1_apply (c : Dev nD) (t : Fin cfg2.N) (x : S8000x3.Idx) (k : S3200000x3.Idx)
    (hk0 : (k 0).val = 8000 * t.val + (x 0).val) (hk1 : (k 1).val = (x 1).val) :
    (iblk2 V c 1 t : Vec Ideal S8000x3 .f32) x = (V c main_v18 : S3200000x3.Idx → Elt Ideal .f32) k := by
  obtain ⟨h0, h1⟩ := (idx_facts t).2.1
  unfold iblk2
  rw [View.read_apply]
  show V c main_v18 _ = V c main_v18 _
  refine congrArg (V c main_v18) (funext fun a => Fin.ext ?_)
  match a with
  | ⟨0, _⟩ => show win2_1.index t 0 * 8000 + 1 * (x 0).val = (k 0).val; rw [h0, hk0]; omega
  | ⟨1, _⟩ => show win2_1.index t 1 * 3 + 1 * (x 1).val = (k 1).val; rw [h1, hk1]; omega

/-- Window 2's block at point t holds rows 8000·t … of its array. -/
theorem blk2_apply (c : Dev nD) (t : Fin cfg2.N) (x : S8000x1.Idx) (k : S3200000x1.Idx)
    (hk0 : (k 0).val = 8000 * t.val + (x 0).val) (hk1 : (k 1).val = (x 1).val) :
    (iblk2 V c 2 t : Vec Ideal S8000x1 .f32) x = (V c main_arg2 : S3200000x1.Idx → Elt Ideal .f32) k := by
  obtain ⟨h0, h1⟩ := (idx_facts t).2.2.1
  unfold iblk2
  rw [View.read_apply]
  show V c main_arg2 _ = V c main_arg2 _
  refine congrArg (V c main_arg2) (funext fun a => Fin.ext ?_)
  match a with
  | ⟨0, _⟩ => show win2_2.index t 0 * 8000 + 1 * (x 0).val = (k 0).val; rw [h0, hk0]; omega
  | ⟨1, _⟩ => show win2_2.index t 1 * 1 + 1 * (x 1).val = (k 1).val; rw [h1, hk1]; omega

/-- Window 3's block at every point is its whole array. -/
theorem blk3_apply (c : Dev nD) (t : Fin cfg2.N) (x : S32x32.Idx) :
    (iblk2 V c 3 t : Vec Ideal S32x32 .f32) x = (V c main_arg5 : S32x32.Idx → Elt Ideal .f32) x := by
  obtain ⟨h0, h1⟩ := (idx_facts t).2.2.2.1
  unfold iblk2
  rw [View.read_apply]
  show V c main_arg5 _ = V c main_arg5 _
  refine congrArg (V c main_arg5) (funext fun a => Fin.ext ?_)
  match a with
  | ⟨0, _⟩ => show win2_3.index t 0 * 32 + 1 * (x 0).val = (x 0).val; rw [h0]; omega
  | ⟨1, _⟩ => show win2_3.index t 1 * 32 + 1 * (x 1).val = (x 1).val; rw [h1]; omega

/-- Window 4's block at every point is its whole array. -/
theorem blk4_apply (c : Dev nD) (t : Fin cfg2.N) (x : S3x32.Idx) :
    (iblk2 V c 4 t : Vec Ideal S3x32 .f32) x = (V c main_arg8 : S3x32.Idx → Elt Ideal .f32) x := by
  obtain ⟨h0, h1⟩ := (idx_facts t).2.2.2.2.1
  unfold iblk2
  rw [View.read_apply]
  show V c main_arg8 _ = V c main_arg8 _
  refine congrArg (V c main_arg8) (funext fun a => Fin.ext ?_)
  match a with
  | ⟨0, _⟩ => show win2_4.index t 0 * 3 + 1 * (x 0).val = (x 0).val; rw [h0]; omega
  | ⟨1, _⟩ => show win2_4.index t 1 * 32 + 1 * (x 1).val = (x 1).val; rw [h1]; omega

/-- Window 5's block at every point is its whole array. -/
theorem blk5_apply (c : Dev nD) (t : Fin cfg2.N) (x : S1x32.Idx) :
    (iblk2 V c 5 t : Vec Ideal S1x32 .f32) x = (V c main_arg11 : S1x32.Idx → Elt Ideal .f32) x := by
  obtain ⟨h0, h1⟩ := (idx_facts t).2.2.2.2.2.1
  unfold iblk2
  rw [View.read_apply]
  show V c main_arg11 _ = V c main_arg11 _
  refine congrArg (V c main_arg11) (funext fun a => Fin.ext ?_)
  match a with
  | ⟨0, _⟩ => show win2_5.index t 0 * 1 + 1 * (x 0).val = (x 0).val; rw [h0]; omega
  | ⟨1, _⟩ => show win2_5.index t 1 * 32 + 1 * (x 1).val = (x 1).val; rw [h1]; omega

/-- Window 6's block at every point is its whole array. -/
theorem blk6_apply (c : Dev nD) (t : Fin cfg2.N) (x : S1x32.Idx) :
    (iblk2 V c 6 t : Vec Ideal S1x32 .f32) x = (V c main_v70 : S1x32.Idx → Elt Ideal .f32) x := by
  obtain ⟨h0, h1⟩ := (idx_facts t).2.2.2.2.2.2.1
  unfold iblk2
  rw [View.read_apply]
  show V c main_v70 _ = V c main_v70 _
  refine congrArg (V c main_v70) (funext fun a => Fin.ext ?_)
  match a with
  | ⟨0, _⟩ => show win2_6.index t 0 * 1 + 1 * (x 0).val = (x 0).val; rw [h0]; omega
  | ⟨1, _⟩ => show win2_6.index t 1 * 32 + 1 * (x 1).val = (x 1).val; rw [h1]; omega

/-! ## The result array -/

/-- The array the region leaves: entry (r, q) is the message of edge r, channel q, from the arrays as the region
    finds them. -/
def G (c : Dev nD) : S3200000x32.Idx → Elt Ideal .f32 :=
  Msg.msg (V c main_v69 : S3200000x32.Idx → Elt Ideal .f32) (V c main_v18 : S3200000x3.Idx → Elt Ideal .f32)
    (V c main_arg2 : S3200000x1.Idx → Elt Ideal .f32) (V c main_arg5 : S32x32.Idx → Elt Ideal .f32)
    (V c main_arg8 : S3x32.Idx → Elt Ideal .f32) (V c main_arg11 : S1x32.Idx → Elt Ideal .f32)
    (fun q => (V c main_v70 : S1x32.Idx → Elt Ideal .f32) (ix2 (0 : Fin 1) q))

/-- What point t writes back is block t of that array. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S8000x32) hz, View.ld_unit_zero (S := S8000x3) hz, View.ld_unit_zero (S := S8000x1) hz,
    View.ld_unit_zero (S := S32x32) hz, View.ld_unit_zero (S := S3x32) hz, View.ld_unit_zero (S := S1x32) hz]
  obtain ⟨h0, h1⟩ := (idx_facts t).2.2.2.2.2.2.2
  funext j
  obtain ⟨p, q, rfl⟩ : ∃ (p : Fin 8000) (q : Fin 32), j = ix2 p q := ⟨j 0, j 1, eq_ix2 j⟩
  refine (pay_apply (iblk2 V c 0 t) (iblk2 V c 1 t) (iblk2 V c 2 t) (iblk2 V c 3 t) (iblk2 V c 4 t)
    (iblk2 V c 5 t) (iblk2 V c 6 t) p q).trans ?_
  rw [View.read_apply]
  have e0 : ((((cfg2.win 7).blk t).view.emb (ix2 p q)) 0).val = 8000 * t.val + p.val := by
    show win2_7.index t 0 * 8000 + 1 * p.val = _; rw [h0]; omega
  have e1 : ((((cfg2.win 7).blk t).view.emb (ix2 p q)) 1).val = q.val := by
    show win2_7.index t 1 * 32 + 1 * q.val = _; rw [h1]; omega
  exact Msg.msgAt_congr (r := 8000) (n := 3200000) (d := 32) (e := 32)
    (iblk2 V c 0 t : Vec Ideal S8000x32 .f32) (iblk2 V c 1 t : Vec Ideal S8000x3 .f32) (iblk2 V c 2 t : Vec Ideal S8000x1 .f32)
    (iblk2 V c 3 t : Vec Ideal S32x32 .f32) (iblk2 V c 4 t : Vec Ideal S3x32 .f32) (iblk2 V c 5 t : Vec Ideal S1x32 .f32)
    (iblk2 V c 6 t : Vec Ideal S1x32 .f32)
    (V c main_v69 : S3200000x32.Idx → Elt Ideal .f32) (V c main_v18 : S3200000x3.Idx → Elt Ideal .f32)
    (V c main_arg2 : S3200000x1.Idx → Elt Ideal .f32) (V c main_arg5 : S32x32.Idx → Elt Ideal .f32)
    (V c main_arg8 : S3x32.Idx → Elt Ideal .f32) (V c main_arg11 : S1x32.Idx → Elt Ideal .f32)
    (V c main_v70 : S1x32.Idx → Elt Ideal .f32) p q ⟨_, (((cfg2.win 7).blk t).view.emb (ix2 p q) 0).isLt⟩
    ⟨_, (((cfg2.win 7).blk t).view.emb (ix2 p q) 1).isLt⟩ e1
    (fun k => blk0_apply V c t (ix2 p k) (ix2 ⟨_, (((cfg2.win 7).blk t).view.emb (ix2 p q) 0).isLt⟩ k) e0 rfl)
    (fun k => blk1_apply V c t (ix2 p k) (ix2 ⟨_, (((cfg2.win 7).blk t).view.emb (ix2 p q) 0).isLt⟩ k) e0 rfl)
    (fun k => blk2_apply V c t (ix2 p k) (ix2 ⟨_, (((cfg2.win 7).blk t).view.emb (ix2 p q) 0).isLt⟩ k) e0 rfl)
    (fun k => blk3_apply V c t (ix2 k q)) (fun k => blk4_apply V c t (ix2 k q)) (fun k => blk5_apply V c t (ix2 k q))
    (blk6_apply V c t (ix2 (0 : Fin 1) q))

/-- An index of the result array is in point t's block iff its row is among the block's. -/
theorem mem_blk (t : Fin cfg2.N) (i : S3200000x32.Idx) :
    i ∈ ((cfg2.win 7).blk t).view.set ↔ ∀ a : Fin 2, win2_7.index t a * S8000x32.size a ≤ (i a).val ∧ (i a).val < win2_7.index t a * S8000x32.size a + S8000x32.size a := by
  show i ∈ ((View.whole main_v71).slice (win2_7.rect t)).set ↔ _
  rw [View.set_slice_whole, Rect.mem_set_unit]
  exact Iff.rfl

/-- The blocks cover the array: row r is in the block of point r / 8000. -/
theorem cover (i : S3200000x32.Idx) : ∃ t : Fin cfg2.N, (cfg2.win 7).flush t = true ∧ i ∈ ((cfg2.win 7).blk t).view.set := by
  have hi0 : (i 0).val < 3200000 := (i 0).isLt
  have hi1 : (i 1).val < 32 := (i 1).isLt
  obtain ⟨t, ht⟩ := idx_onto ⟨(i 0).val / 8000, by omega⟩
  obtain ⟨h0, h1⟩ := (idx_facts t).2.2.2.2.2.2.2
  refine ⟨t, flush2_7 t, ?_⟩
  rw [mem_blk]
  intro a
  match a with
  | ⟨0, _⟩ => show win2_7.index t (0 : Fin 2) * 8000 ≤ (i 0).val ∧ (i 0).val < win2_7.index t (0 : Fin 2) * 8000 + 8000
              rw [h0, ht]; show (i 0).val / 8000 * 8000 ≤ (i 0).val ∧ (i 0).val < (i 0).val / 8000 * 8000 + 8000; omega
  | ⟨1, _⟩ => show win2_7.index t (1 : Fin 2) * 32 ≤ (i 1).val ∧ (i 1).val < win2_7.index t (1 : Fin 2) * 32 + 32
              rw [h1]; omega

/-- The result array after the region. -/
theorem final (c : Dev nD) : (dat2 V c).arrAt 7 cfg2.N = G V c :=
  (dat2 V c).arrAt_eq_of_cover 7 (G V c) (fun t _ => flushed_eq V c t) (cover)

/-- The same, with the arrays the region finds named. -/
theorem final_of (c : Dev nD) (H : S3200000x32.Idx → Elt Ideal .f32) (P : S3200000x3.Idx → Elt Ideal .f32)
    (A : S3200000x1.Idx → Elt Ideal .f32) (Wx : S32x32.Idx → Elt Ideal .f32) (Wp : S3x32.Idx → Elt Ideal .f32)
    (We : S1x32.Idx → Elt Ideal .f32) (b : S1x32.Idx → Elt Ideal .f32)
    (h0 : V c main_v69 = H) (h1 : V c main_v18 = P) (h2 : V c main_arg2 = A) (h3 : V c main_arg5 = Wx)
    (h4 : V c main_arg8 = Wp) (h5 : V c main_arg11 = We) (h6 : V c main_v70 = b) :
    (dat2 V c).arrAt 7 cfg2.N = Msg.msg H P A Wx Wp We (fun q => b (ix2 (0 : Fin 1) q)) := by
  subst h0 h1 h2 h3 h4 h5 h6
  exact final V c

end Cert.KernelIdeal.Region2

end
-- ==== Proof.RefMsg.lean ====
/-
  The reference's three message layers, each as the message array of its operands.

  In the reference a layer is three dot_generals of the gathered source features, the relative positions and the edge
  attributes with that layer's weights, added in order, plus the bias vector laid as a row and repeated down the
  rows, through tanh: entry by entry the message of the specification.
-/
import proofs.«125535_j73607149519515_1_alg».proof.Proof.Gen.ReferenceIdeal.Read
import proofs.«125535_j73607149519515_1_alg».proof.Proof.MsgSpec

noncomputable section

namespace Cert.ReferenceIdeal.RefMsg

open Cert.ReferenceIdeal Cert.ReferenceIdeal.Gen Cert.ReferenceIdeal.Read Idealize.ShloMosaic Idealize.ShloMosaic.ValueIdx

variable (x0 : (⟨S100000x5, .f32⟩ : BufTy).Contents (Elt Ideal)) (x1 : (⟨S100000x3, .f32⟩ : BufTy).Contents (Elt Ideal))
    (x2 : (⟨S3200000x1, .f32⟩ : BufTy).Contents (Elt Ideal)) (x3 : (⟨S5x32, .f32⟩ : BufTy).Contents (Elt Ideal))
    (x4 x5 : (⟨S32x32, .f32⟩ : BufTy).Contents (Elt Ideal)) (x6 x7 x8 : (⟨S3x32, .f32⟩ : BufTy).Contents (Elt Ideal))
    (x9 x10 x11 : (⟨S1x32, .f32⟩ : BufTy).Contents (Elt Ideal)) (x12 x13 x14 : (⟨S32, .f32⟩ : BufTy).Contents (Elt Ideal))
    (x17 : (⟨S2x3200000, .i32⟩ : BufTy).Contents (Elt Ideal))

/-- Layer 0: the messages from the gathered input features. -/
theorem layer0 : val_main_v34 (F := Ideal) x0 x1 x2 x3 x6 x9 x12 x17
    = Msg.msg (val_main_v25 (F := Ideal) x0 x17) (val_main_v18 (F := Ideal) x1 x17) x2 x3 x6 x9 (fun q => x12 (ix1 q)) := by
  funext i
  obtain ⟨p, q, rfl⟩ : ∃ (p : Fin 3200000) (q : Fin 32), i = ix2 p q := ⟨i 0, i 1, eq_ix2 i⟩
  unfold val_main_v34 val_main_v33 val_main_v32 val_main_v31 val_main_v30 val_main_v29 val_main_v28 val_main_v27 val_main_v26
  exact Msg.host_apply dot_S3200000x5_S5x32_S3200000x32_1_0_0_1_n_n dot_S3200000x3_S3x32_S3200000x32_1_0_0_1_n_n
    dot_S3200000x1_S1x32_S3200000x32_1_0_0_1_n_n ⟨rfl, rfl, rfl, rfl, rfl, rfl, rfl⟩ rfl ⟨rfl, rfl, rfl, rfl, rfl, rfl, rfl⟩ rfl ⟨rfl, rfl, rfl, rfl, rfl, rfl, rfl⟩ rfl
    (val_main_v25 (F := Ideal) x0 x17) (val_main_v18 (F := Ideal) x1 x17) x2 x3 x6 x9 x12 bcast_S32_S1x32_1 bcast_S1x32_S3200000x32_0_1 p q

/-- Layer 1: the messages from the gathered node states after layer 0. -/
theorem layer1 : val_main_v63 (F := Ideal) x0 x1 x2 x3 x4 x6 x7 x9 x10 x12 x13 x17
    = Msg.msg (val_main_v54 (F := Ideal) x0 x1 x2 x3 x6 x9 x12 x17) (val_main_v18 (F := Ideal) x1 x17) x2 x4 x7 x10 (fun q => x13 (ix1 q)) := by
  funext i
  obtain ⟨p, q, rfl⟩ : ∃ (p : Fin 3200000) (q : Fin 32), i = ix2 p q := ⟨i 0, i 1, eq_ix2 i⟩
  unfold val_main_v63 val_main_v62 val_main_v61 val_main_v60 val_main_v59 val_main_v58 val_main_v57 val_main_v56 val_main_v55
  exact Msg.host_apply dot_S3200000x32_S32x32_S3200000x32_1_0_0_1_n_n dot_S3200000x3_S3x32_S3200000x32_1_0_0_1_n_n
    dot_S3200000x1_S1x32_S3200000x32_1_0_0_1_n_n ⟨rfl, rfl, rfl, rfl, rfl, rfl, rfl⟩ rfl ⟨rfl, rfl, rfl, rfl, rfl, rfl, rfl⟩ rfl ⟨rfl, rfl, rfl, rfl, rfl, rfl, rfl⟩ rfl
    (val_main_v54 (F := Ideal) x0 x1 x2 x3 x6 x9 x12 x17) (val_main_v18 (F := Ideal) x1 x17) x2 x4 x7 x10 x13 bcast_S32_S1x32_1 bcast_S1x32_S3200000x32_0_1 p q

/-- Layer 2: the messages from the gathered node states after layer 1. -/
theorem layer2 : val_main_v92 (F := Ideal) x0 x1 x2 x3 x4 x5 x6 x7 x8 x9 x10 x11 x12 x13 x14 x17
    = Msg.msg (val_main_v83 (F := Ideal) x0 x1 x2 x3 x4 x6 x7 x9 x10 x12 x13 x17) (val_main_v18 (F := Ideal) x1 x17) x2 x5 x8 x11 (fun q => x14 (ix1 q)) := by
  funext i
  obtain ⟨p, q, rfl⟩ : ∃ (p : Fin 3200000) (q : Fin 32), i = ix2 p q := ⟨i 0, i 1, eq_ix2 i⟩
  unfold val_main_v92 val_main_v91 val_main_v90 val_main_v89 val_main_v88 val_main_v87 val_main_v86 val_main_v85 val_main_v84
  exact Msg.host_apply dot_S3200000x32_S32x32_S3200000x32_1_0_0_1_n_n dot_S3200000x3_S3x32_S3200000x32_1_0_0_1_n_n
    dot_S3200000x1_S1x32_S3200000x32_1_0_0_1_n_n ⟨rfl, rfl, rfl, rfl, rfl, rfl, rfl⟩ rfl ⟨rfl, rfl, rfl, rfl, rfl, rfl, rfl⟩ rfl ⟨rfl, rfl, rfl, rfl, rfl, rfl, rfl⟩ rfl
    (val_main_v83 (F := Ideal) x0 x1 x2 x3 x4 x6 x7 x9 x10 x12 x13 x17) (val_main_v18 (F := Ideal) x1 x17) x2 x5 x8 x11 x14 bcast_S32_S1x32_1 bcast_S1x32_S3200000x32_0_1 p q

end Cert.ReferenceIdeal.RefMsg

end
-- ==== Proof.KValue.lean ====
/-
  The idealized kernel's two results as the reference's stages of the argument arrays.

  @main is four stretches of host operations around three message kernels.  The buffer contents at each boundary
  are read in turn: a stretch's results are its operations applied to the contents it starts from; a region leaves
  its result array at the message array of the arrays it finds (its other arrays, and every buffer that is not one
  of its arrays, as it found them).  Host stretches of the kernel's @main and of the reference's are the same
  operations, so each boundary's contents are named by the reference's stage of the same value.
-/
import proofs.«125535_j73607149519515_1_alg».proof.Proof.Gen.KernelIdeal.Frame
import proofs.«125535_j73607149519515_1_alg».proof.Proof.Region0
import proofs.«125535_j73607149519515_1_alg».proof.Proof.Region1
import proofs.«125535_j73607149519515_1_alg».proof.Proof.Region2
import proofs.«125535_j73607149519515_1_alg».proof.Proof.RefMsg
import Idealize.ShloMosaic.Lib.StableHlo.Run
import Idealize.ShloMosaic.Lib.ValueLayout

set_option maxRecDepth 16384

noncomputable section

namespace Cert.KernelIdeal.Hand

open Cert.KernelIdeal Cert.KernelIdeal.Gen Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## Buffers carried unchanged from boundary to boundary -/

theorem w1_v1 : W1 m ρ c (Proc.devRef .tc main_v1) = val_main_v1 (F := Ideal) (m ((c : Thread nD τ).loc main_arg17)) := by
  show StableHlo.after hostOps0 (W0 m ρ c) (Proc.devRef .tc main_v1) = _
  after_results_simp <;> rfl
theorem w2_v1 : W2 m ρ c (Proc.devRef .tc main_v1) = val_main_v1 (F := Ideal) (m ((c : Thread nD τ).loc main_arg17)) :=
  (W2_of_ne m ρ c main_v1 (by decide)).trans (w1_v1 m ρ c)
theorem w3_v1 : W3 m ρ c (Proc.devRef .tc main_v1) = val_main_v1 (F := Ideal) (m ((c : Thread nD τ).loc main_arg17)) := by
  show StableHlo.after hostOps1 (W2 m ρ c) (Proc.devRef .tc main_v1) = _
  after_results_simp
  exact w2_v1 m ρ c
theorem w4_v1 : W4 m ρ c (Proc.devRef .tc main_v1) = val_main_v1 (F := Ideal) (m ((c : Thread nD τ).loc main_arg17)) :=
  (W4_of_ne m ρ c main_v1 (by decide)).trans (w3_v1 m ρ c)
theorem w5_v1 : W5 m ρ c (Proc.devRef .tc main_v1) = val_main_v1 (F := Ideal) (m ((c : Thread nD τ).loc main_arg17)) := by
  show StableHlo.after hostOps2 (W4 m ρ c) (Proc.devRef .tc main_v1) = _
  after_results_simp
  exact w4_v1 m ρ c
theorem w6_v1 : W6 m ρ c (Proc.devRef .tc main_v1) = val_main_v1 (F := Ideal) (m ((c : Thread nD τ).loc main_arg17)) :=
  (W6_of_ne m ρ c main_v1 (by decide)).trans (w5_v1 m ρ c)

theorem w1_v3 : W1 m ρ c (Proc.devRef .tc main_v3) = val_main_v3 (F := Ideal) (m ((c : Thread nD τ).loc main_arg17)) := by
  show StableHlo.after hostOps0 (W0 m ρ c) (Proc.devRef .tc main_v3) = _
  after_results_simp <;> rfl
theorem w2_v3 : W2 m ρ c (Proc.devRef .tc main_v3) = val_main_v3 (F := Ideal) (m ((c : Thread nD τ).loc main_arg17)) :=
  (W2_of_ne m ρ c main_v3 (by decide)).trans (w1_v3 m ρ c)
theorem w3_v3 : W3 m ρ c (Proc.devRef .tc main_v3) = val_main_v3 (F := Ideal) (m ((c : Thread nD τ).loc main_arg17)) := by
  show StableHlo.after hostOps1 (W2 m ρ c) (Proc.devRef .tc main_v3) = _
  after_results_simp
  exact w2_v3 m ρ c
theorem w4_v3 : W4 m ρ c (Proc.devRef .tc main_v3) = val_main_v3 (F := Ideal) (m ((c : Thread nD τ).loc main_arg17)) :=
  (W4_of_ne m ρ c main_v3 (by decide)).trans (w3_v3 m ρ c)
theorem w5_v3 : W5 m ρ c (Proc.devRef .tc main_v3) = val_main_v3 (F := Ideal) (m ((c : Thread nD τ).loc main_arg17)) := by
  show StableHlo.after hostOps2 (W4 m ρ c) (Proc.devRef .tc main_v3) = _
  after_results_simp
  exact w4_v3 m ρ c
theorem w6_v3 : W6 m ρ c (Proc.devRef .tc main_v3) = val_main_v3 (F := Ideal) (m ((c : Thread nD τ).loc main_arg17)) :=
  (W6_of_ne m ρ c main_v3 (by decide)).trans (w5_v3 m ρ c)

theorem w1_v18 : W1 m ρ c (Proc.devRef .tc main_v18) = val_main_v18 (F := Ideal) (m ((c : Thread nD τ).loc main_arg1)) (m ((c : Thread nD τ).loc main_arg17)) := by
  show StableHlo.after hostOps0 (W0 m ρ c) (Proc.devRef .tc main_v18) = _
  after_results_simp <;> rfl
theorem w2_v18 : W2 m ρ c (Proc.devRef .tc main_v18) = val_main_v18 (F := Ideal) (m ((c : Thread nD τ).loc main_arg1)) (m ((c : Thread nD τ).loc main_arg17)) :=
  ((W2_arr m ρ c 1).trans (((dat0 (V1 m ρ) c).arrAt_in 1 rfl _).trans (A_eq0 (V1 m ρ) c 1))).trans (w1_v18 m ρ c)
theorem w3_v18 : W3 m ρ c (Proc.devRef .tc main_v18) = val_main_v18 (F := Ideal) (m ((c : Thread nD τ).loc main_arg1)) (m ((c : Thread nD τ).loc main_arg17)) := by
  show StableHlo.after hostOps1 (W2 m ρ c) (Proc.devRef .tc main_v18) = _
  after_results_simp
  exact w2_v18 m ρ c
theorem w4_v18 : W4 m ρ c (Proc.devRef .tc main_v18) = val_main_v18 (F := Ideal) (m ((c : Thread nD τ).loc main_arg1)) (m ((c : Thread nD τ).loc main_arg17)) :=
  ((W4_arr m ρ c 1).trans (((dat1 (V3 m ρ) c).arrAt_in 1 rfl _).trans (A_eq1 (V3 m ρ) c 1))).trans (w3_v18 m ρ c)
theorem w5_v18 : W5 m ρ c (Proc.devRef .tc main_v18) = val_main_v18 (F := Ideal) (m ((c : Thread nD τ).loc main_arg1)) (m ((c : Thread nD τ).loc main_arg17)) := by
  show StableHlo.after hostOps2 (W4 m ρ c) (Proc.devRef .tc main_v18) = _
  after_results_simp
  exact w4_v18 m ρ c

theorem w1_arg2 : W1 m ρ c (Proc.devRef .tc main_arg2) = (m ((c : Thread nD τ).loc main_arg2)) := by
  show StableHlo.after hostOps0 (W0 m ρ c) (Proc.devRef .tc main_arg2) = _
  after_results_simp <;> rfl
theorem w2_arg2 : W2 m ρ c (Proc.devRef .tc main_arg2) = (m ((c : Thread nD τ).loc main_arg2)) :=
  ((W2_arr m ρ c 2).trans (((dat0 (V1 m ρ) c).arrAt_in 2 rfl _).trans (A_eq0 (V1 m ρ) c 2))).trans (w1_arg2 m ρ c)
theorem w3_arg2 : W3 m ρ c (Proc.devRef .tc main_arg2) = (m ((c : Thread nD τ).loc main_arg2)) := by
  show StableHlo.after hostOps1 (W2 m ρ c) (Proc.devRef .tc main_arg2) = _
  after_results_simp
  exact w2_arg2 m ρ c
theorem w4_arg2 : W4 m ρ c (Proc.devRef .tc main_arg2) = (m ((c : Thread nD τ).loc main_arg2)) :=
  ((W4_arr m ρ c 2).trans (((dat1 (V3 m ρ) c).arrAt_in 2 rfl _).trans (A_eq1 (V3 m ρ) c 2))).trans (w3_arg2 m ρ c)
theorem w5_arg2 : W5 m ρ c (Proc.devRef .tc main_arg2) = (m ((c : Thread nD τ).loc main_arg2)) := by
  show StableHlo.after hostOps2 (W4 m ρ c) (Proc.devRef .tc main_arg2) = _
  after_results_simp
  exact w4_arg2 m ρ c

theorem w1_arg3 : W1 m ρ c (Proc.devRef .tc main_arg3) = (m ((c : Thread nD τ).loc main_arg3)) := by
  show StableHlo.after hostOps0 (W0 m ρ c) (Proc.devRef .tc main_arg3) = _
  after_results_simp <;> rfl

theorem w1_arg6 : W1 m ρ c (Proc.devRef .tc main_arg6) = (m ((c : Thread nD τ).loc main_arg6)) := by
  show StableHlo.after hostOps0 (W0 m ρ c) (Proc.devRef .tc main_arg6) = _
  after_results_simp <;> rfl

theorem w1_arg9 : W1 m ρ c (Proc.devRef .tc main_arg9) = (m ((c : Thread nD τ).loc main_arg9)) := by
  show StableHlo.after hostOps0 (W0 m ρ c) (Proc.devRef .tc main_arg9) = _
  after_results_simp <;> rfl

theorem w1_arg4 : W1 m ρ c (Proc.devRef .tc main_arg4) = (m ((c : Thread nD τ).loc main_arg4)) := by
  show StableHlo.after hostOps0 (W0 m ρ c) (Proc.devRef .tc main_arg4) = _
  after_results_simp <;> rfl
theorem w2_arg4 : W2 m ρ c (Proc.devRef .tc main_arg4) = (m ((c : Thread nD τ).loc main_arg4)) :=
  (W2_of_ne m ρ c main_arg4 (by decide)).trans (w1_arg4 m ρ c)
theorem w3_arg4 : W3 m ρ c (Proc.devRef .tc main_arg4) = (m ((c : Thread nD τ).loc main_arg4)) := by
  show StableHlo.after hostOps1 (W2 m ρ c) (Proc.devRef .tc main_arg4) = _
  after_results_simp
  exact w2_arg4 m ρ c

theorem w1_arg7 : W1 m ρ c (Proc.devRef .tc main_arg7) = (m ((c : Thread nD τ).loc main_arg7)) := by
  show StableHlo.after hostOps0 (W0 m ρ c) (Proc.devRef .tc main_arg7) = _
  after_results_simp <;> rfl
theorem w2_arg7 : W2 m ρ c (Proc.devRef .tc main_arg7) = (m ((c : Thread nD τ).loc main_arg7)) :=
  (W2_of_ne m ρ c main_arg7 (by decide)).trans (w1_arg7 m ρ c)
theorem w3_arg7 : W3 m ρ c (Proc.devRef .tc main_arg7) = (m ((c : Thread nD τ).loc main_arg7)) := by
  show StableHlo.after hostOps1 (W2 m ρ c) (Proc.devRef .tc main_arg7) = _
  after_results_simp
  exact w2_arg7 m ρ c

theorem w1_arg10 : W1 m ρ c (Proc.devRef .tc main_arg10) = (m ((c : Thread nD τ).loc main_arg10)) := by
  show StableHlo.after hostOps0 (W0 m ρ c) (Proc.devRef .tc main_arg10) = _
  after_results_simp <;> rfl
theorem w2_arg10 : W2 m ρ c (Proc.devRef .tc main_arg10) = (m ((c : Thread nD τ).loc main_arg10)) :=
  (W2_of_ne m ρ c main_arg10 (by decide)).trans (w1_arg10 m ρ c)
theorem w3_arg10 : W3 m ρ c (Proc.devRef .tc main_arg10) = (m ((c : Thread nD τ).loc main_arg10)) := by
  show StableHlo.after hostOps1 (W2 m ρ c) (Proc.devRef .tc main_arg10) = _
  after_results_simp
  exact w2_arg10 m ρ c

theorem w1_arg13 : W1 m ρ c (Proc.devRef .tc main_arg13) = (m ((c : Thread nD τ).loc main_arg13)) := by
  show StableHlo.after hostOps0 (W0 m ρ c) (Proc.devRef .tc main_arg13) = _
  after_results_simp <;> rfl
theorem w2_arg13 : W2 m ρ c (Proc.devRef .tc main_arg13) = (m ((c : Thread nD τ).loc main_arg13)) :=
  (W2_of_ne m ρ c main_arg13 (by decide)).trans (w1_arg13 m ρ c)

theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w2_arg5 : W2 m ρ c (Proc.devRef .tc main_arg5) = (m ((c : Thread nD τ).loc main_arg5)) :=
  (W2_of_ne m ρ c main_arg5 (by decide)).trans (w1_arg5 m ρ c)
theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c
theorem w4_arg5 : W4 m ρ c (Proc.devRef .tc main_arg5) = (m ((c : Thread nD τ).loc main_arg5)) :=
  (W4_of_ne m ρ c main_arg5 (by decide)).trans (w3_arg5 m ρ c)
theorem w5_arg5 : W5 m ρ c (Proc.devRef .tc main_arg5) = (m ((c : Thread nD τ).loc main_arg5)) := by
  show StableHlo.after hostOps2 (W4 m ρ c) (Proc.devRef .tc main_arg5) = _
  after_results_simp
  exact w4_arg5 m ρ c

theorem w1_arg8 : W1 m ρ c (Proc.devRef .tc main_arg8) = (m ((c : Thread nD τ).loc main_arg8)) := by
  show StableHlo.after hostOps0 (W0 m ρ c) (Proc.devRef .tc main_arg8) = _
  after_results_simp <;> rfl
theorem w2_arg8 : W2 m ρ c (Proc.devRef .tc main_arg8) = (m ((c : Thread nD τ).loc main_arg8)) :=
  (W2_of_ne m ρ c main_arg8 (by decide)).trans (w1_arg8 m ρ c)
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
theorem w4_arg8 : W4 m ρ c (Proc.devRef .tc main_arg8) = (m ((c : Thread nD τ).loc main_arg8)) :=
  (W4_of_ne m ρ c main_arg8 (by decide)).trans (w3_arg8 m ρ c)
theorem w5_arg8 : W5 m ρ c (Proc.devRef .tc main_arg8) = (m ((c : Thread nD τ).loc main_arg8)) := by
  show StableHlo.after hostOps2 (W4 m ρ c) (Proc.devRef .tc main_arg8) = _
  after_results_simp
  exact w4_arg8 m ρ c

theorem w1_arg11 : W1 m ρ c (Proc.devRef .tc main_arg11) = (m ((c : Thread nD τ).loc main_arg11)) := by
  show StableHlo.after hostOps0 (W0 m ρ c) (Proc.devRef .tc main_arg11) = _
  after_results_simp <;> rfl
theorem w2_arg11 : W2 m ρ c (Proc.devRef .tc main_arg11) = (m ((c : Thread nD τ).loc main_arg11)) :=
  (W2_of_ne m ρ c main_arg11 (by decide)).trans (w1_arg11 m ρ c)
theorem w3_arg11 : W3 m ρ c (Proc.devRef .tc main_arg11) = (m ((c : Thread nD τ).loc main_arg11)) := by
  show StableHlo.after hostOps1 (W2 m ρ c) (Proc.devRef .tc main_arg11) = _
  after_results_simp
  exact w2_arg11 m ρ c
theorem w4_arg11 : W4 m ρ c (Proc.devRef .tc main_arg11) = (m ((c : Thread nD τ).loc main_arg11)) :=
  (W4_of_ne m ρ c main_arg11 (by decide)).trans (w3_arg11 m ρ c)
theorem w5_arg11 : W5 m ρ c (Proc.devRef .tc main_arg11) = (m ((c : Thread nD τ).loc main_arg11)) := by
  show StableHlo.after hostOps2 (W4 m ρ c) (Proc.devRef .tc main_arg11) = _
  after_results_simp
  exact w4_arg11 m ρ c

theorem w1_arg14 : W1 m ρ c (Proc.devRef .tc main_arg14) = (m ((c : Thread nD τ).loc main_arg14)) := by
  show StableHlo.after hostOps0 (W0 m ρ c) (Proc.devRef .tc main_arg14) = _
  after_results_simp <;> rfl
theorem w2_arg14 : W2 m ρ c (Proc.devRef .tc main_arg14) = (m ((c : Thread nD τ).loc main_arg14)) :=
  (W2_of_ne m ρ c main_arg14 (by decide)).trans (w1_arg14 m ρ c)
theorem w3_arg14 : W3 m ρ c (Proc.devRef .tc main_arg14) = (m ((c : Thread nD τ).loc main_arg14)) := by
  show StableHlo.after hostOps1 (W2 m ρ c) (Proc.devRef .tc main_arg14) = _
  after_results_simp
  exact w2_arg14 m ρ c
theorem w4_arg14 : W4 m ρ c (Proc.devRef .tc main_arg14) = (m ((c : Thread nD τ).loc main_arg14)) :=
  (W4_of_ne m ρ c main_arg14 (by decide)).trans (w3_arg14 m ρ c)

theorem w1_arg18 : W1 m ρ c (Proc.devRef .tc main_arg18) = (m ((c : Thread nD τ).loc main_arg18)) := by
  show StableHlo.after hostOps0 (W0 m ρ c) (Proc.devRef .tc main_arg18) = _
  after_results_simp <;> rfl
theorem w2_arg18 : W2 m ρ c (Proc.devRef .tc main_arg18) = (m ((c : Thread nD τ).loc main_arg18)) :=
  (W2_of_ne m ρ c main_arg18 (by decide)).trans (w1_arg18 m ρ c)
theorem w3_arg18 : W3 m ρ c (Proc.devRef .tc main_arg18) = (m ((c : Thread nD τ).loc main_arg18)) := by
  show StableHlo.after hostOps1 (W2 m ρ c) (Proc.devRef .tc main_arg18) = _
  after_results_simp
  exact w2_arg18 m ρ c
theorem w4_arg18 : W4 m ρ c (Proc.devRef .tc main_arg18) = (m ((c : Thread nD τ).loc main_arg18)) :=
  (W4_of_ne m ρ c main_arg18 (by decide)).trans (w3_arg18 m ρ c)
theorem w5_arg18 : W5 m ρ c (Proc.devRef .tc main_arg18) = (m ((c : Thread nD τ).loc main_arg18)) := by
  show StableHlo.after hostOps2 (W4 m ρ c) (Proc.devRef .tc main_arg18) = _
  after_results_simp
  exact w4_arg18 m ρ c
theorem w6_arg18 : W6 m ρ c (Proc.devRef .tc main_arg18) = (m ((c : Thread nD τ).loc main_arg18)) :=
  (W6_of_ne m ρ c main_arg18 (by decide)).trans (w5_arg18 m ρ c)

theorem w1_arg15 : W1 m ρ c (Proc.devRef .tc main_arg15) = (m ((c : Thread nD τ).loc main_arg15)) := by
  show StableHlo.after hostOps0 (W0 m ρ c) (Proc.devRef .tc main_arg15) = _
  after_results_simp <;> rfl
theorem w2_arg15 : W2 m ρ c (Proc.devRef .tc main_arg15) = (m ((c : Thread nD τ).loc main_arg15)) :=
  (W2_of_ne m ρ c main_arg15 (by decide)).trans (w1_arg15 m ρ c)
theorem w3_arg15 : W3 m ρ c (Proc.devRef .tc main_arg15) = (m ((c : Thread nD τ).loc main_arg15)) := by
  show StableHlo.after hostOps1 (W2 m ρ c) (Proc.devRef .tc main_arg15) = _
  after_results_simp
  exact w2_arg15 m ρ c
theorem w4_arg15 : W4 m ρ c (Proc.devRef .tc main_arg15) = (m ((c : Thread nD τ).loc main_arg15)) :=
  (W4_of_ne m ρ c main_arg15 (by decide)).trans (w3_arg15 m ρ c)
theorem w5_arg15 : W5 m ρ c (Proc.devRef .tc main_arg15) = (m ((c : Thread nD τ).loc main_arg15)) := by
  show StableHlo.after hostOps2 (W4 m ρ c) (Proc.devRef .tc main_arg15) = _
  after_results_simp
  exact w4_arg15 m ρ c
theorem w6_arg15 : W6 m ρ c (Proc.devRef .tc main_arg15) = (m ((c : Thread nD τ).loc main_arg15)) :=
  (W6_of_ne m ρ c main_arg15 (by decide)).trans (w5_arg15 m ρ c)

theorem w1_arg16 : W1 m ρ c (Proc.devRef .tc main_arg16) = (m ((c : Thread nD τ).loc main_arg16)) := by
  show StableHlo.after hostOps0 (W0 m ρ c) (Proc.devRef .tc main_arg16) = _
  after_results_simp <;> rfl
theorem w2_arg16 : W2 m ρ c (Proc.devRef .tc main_arg16) = (m ((c : Thread nD τ).loc main_arg16)) :=
  (W2_of_ne m ρ c main_arg16 (by decide)).trans (w1_arg16 m ρ c)
theorem w3_arg16 : W3 m ρ c (Proc.devRef .tc main_arg16) = (m ((c : Thread nD τ).loc main_arg16)) := by
  show StableHlo.after hostOps1 (W2 m ρ c) (Proc.devRef .tc main_arg16) = _
  after_results_simp
  exact w2_arg16 m ρ c
theorem w4_arg16 : W4 m ρ c (Proc.devRef .tc main_arg16) = (m ((c : Thread nD τ).loc main_arg16)) :=
  (W4_of_ne m ρ c main_arg16 (by decide)).trans (w3_arg16 m ρ c)
theorem w5_arg16 : W5 m ρ c (Proc.devRef .tc main_arg16) = (m ((c : Thread nD τ).loc main_arg16)) := by
  show StableHlo.after hostOps2 (W4 m ρ c) (Proc.devRef .tc main_arg16) = _
  after_results_simp
  exact w4_arg16 m ρ c
theorem w6_arg16 : W6 m ρ c (Proc.devRef .tc main_arg16) = (m ((c : Thread nD τ).loc main_arg16)) :=
  (W6_of_ne m ρ c main_arg16 (by decide)).trans (w5_arg16 m ρ c)

/-! ## The contents at each boundary -/

/-- A bias vector cast to one row reads, at (0, q), the vector at q. -/
theorem bias_row (x : S32.Idx → Elt Ideal .f32) :
    (fun q : Fin 32 => (shapeCast S1x32 x shapeCasts_S32_S1x32 : S1x32.Idx → Elt Ideal .f32) (ix2 (0 : Fin 1) q)) = fun q => x (ix1 q) :=
  funext fun q => shapeCast_a_1a_apply x shapeCasts_S32_S1x32 0 q

/-- Region 0 is entered with the gathered input features … -/
theorem w1_v25 : W1 m ρ c (Proc.devRef .tc main_v25) = val_main_v25 (F := Ideal) (m ((c : Thread nD τ).loc main_arg0)) (m ((c : Thread nD τ).loc main_arg17)) := by
  show StableHlo.after hostOps0 (W0 m ρ c) (Proc.devRef .tc main_v25) = _
  after_results_simp <;> rfl
/-- … and the first bias as one row. -/
theorem w1_v26 : W1 m ρ c (Proc.devRef .tc main_v26) = shapeCast S1x32 (m ((c : Thread nD τ).loc main_arg12)) shapeCasts_S32_S1x32 := by
  show StableHlo.after hostOps0 (W0 m ρ c) (Proc.devRef .tc main_v26) = _
  after_results_simp <;> rfl

/-- Region 0 leaves the reference's first message array. -/
theorem w2_v27 : W2 m ρ c (Proc.devRef .tc main_v27) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg9)) (m ((c : Thread nD τ).loc main_arg12)) (m ((c : Thread nD τ).loc main_arg17)) := by
  refine (W2_arr m ρ c 7).trans ?_
  refine (Region0.final_of (V1 m ρ) c _ _ _ _ _ _ _ (w1_v25 m ρ c) (w1_v18 m ρ c) (w1_arg2 m ρ c) (w1_arg3 m ρ c)
    (w1_arg6 m ρ c) (w1_arg9 m ρ c) (w1_v26 m ρ c)).trans ?_
  rw [Cert.ReferenceIdeal.RefMsg.layer0, bias_row]

/-- The stretch after region 0 aggregates twice and gathers the new node states along the edges … -/
theorem w3_v47 : W3 m ρ c (Proc.devRef .tc main_v47) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg9)) (m ((c : Thread nD τ).loc main_arg12)) (m ((c : Thread nD τ).loc main_arg17)) := by
  show StableHlo.after hostOps1 (W2 m ρ c) (Proc.devRef .tc main_v47) = _
  after_results_simp
  rw [w2_v27 m ρ c, w2_v3 m ρ c, w2_v1 m ρ c]
  rfl
/-- … and lays the second bias as one row. -/
theorem w3_v48 : W3 m ρ c (Proc.devRef .tc main_v48) = shapeCast S1x32 (m ((c : Thread nD τ).loc main_arg13)) shapeCasts_S32_S1x32 := by
  show StableHlo.after hostOps1 (W2 m ρ c) (Proc.devRef .tc main_v48) = _
  after_results_simp
  rw [w2_arg13 m ρ c]
  rfl

/-- Region 1 leaves the reference's second message array. -/
theorem w4_v49 : W4 m ρ c (Proc.devRef .tc main_v49) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10)) (m ((c : Thread nD τ).loc main_arg12)) (m ((c : Thread nD τ).loc main_arg13)) (m ((c : Thread nD τ).loc main_arg17)) := by
  refine (W4_arr m ρ c 7).trans ?_
  refine (Region1.final_of (V3 m ρ) c _ _ _ _ _ _ _ (w3_v47 m ρ c) (w3_v18 m ρ c) (w3_arg2 m ρ c) (w3_arg4 m ρ c)
    (w3_arg7 m ρ c) (w3_arg10 m ρ c) (w3_v48 m ρ c)).trans ?_
  rw [Cert.ReferenceIdeal.RefMsg.layer1, bias_row]

theorem w5_v69 : W5 m ρ c (Proc.devRef .tc main_v69) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10)) (m ((c : Thread nD τ).loc main_arg12)) (m ((c : Thread nD τ).loc main_arg13)) (m ((c : Thread nD τ).loc main_arg17)) := by
  show StableHlo.after hostOps2 (W4 m ρ c) (Proc.devRef .tc main_v69) = _
  after_results_simp
  rw [w4_v49 m ρ c, w4_v3 m ρ c, w4_v1 m ρ c]
  rfl
theorem w5_v70 : W5 m ρ c (Proc.devRef .tc main_v70) = shapeCast S1x32 (m ((c : Thread nD τ).loc main_arg14)) shapeCasts_S32_S1x32 := by
  show StableHlo.after hostOps2 (W4 m ρ c) (Proc.devRef .tc main_v70) = _
  after_results_simp
  rw [w4_arg14 m ρ c]
  rfl

/-- Region 2 leaves the reference's third message array. -/
theorem w6_v71 : W6 m ρ c (Proc.devRef .tc main_v71) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) := by
  refine (W6_arr m ρ c 7).trans ?_
  refine (Region2.final_of (V5 m ρ) c _ _ _ _ _ _ _ (w5_v69 m ρ c) (w5_v18 m ρ c) (w5_arg2 m ρ c) (w5_arg5 m ρ c)
    (w5_arg8 m ρ c) (w5_arg11 m ρ c) (w5_v70 m ρ c)).trans ?_
  rw [Cert.ReferenceIdeal.RefMsg.layer2, bias_row]

/-- The last stretch aggregates, pools over the graphs and applies the head: the pooled representation … -/
theorem w7_v96 : W7 m ρ c (Proc.devRef .tc main_v96) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) (m ((c : Thread nD τ).loc main_arg18)) := by
  show StableHlo.after hostOps3 (W6 m ρ c) (Proc.devRef .tc main_v96) = _
  after_results_simp
  rw [w6_v71 m ρ c, w6_v3 m ρ c, w6_v1 m ρ c, w6_arg18 m ρ c]
  rfl
/-- … and the prediction. -/
theorem w7_v100 : W7 m ρ c (Proc.devRef .tc main_v100) = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps3 (W6 m ρ c) (Proc.devRef .tc main_v100) = _
  after_results_simp
  rw [w6_v71 m ρ c, w6_v3 m ρ c, w6_v1 m ρ c, w6_arg18 m ρ c, w6_arg15 m ρ c, w6_arg16 m ρ c]
  rfl

end Cert.KernelIdeal.Hand

end
-- ==== Proof.lean ====
/-
  Three message-passing layers with a Pallas message kernel, against the plain jnp reference, on the extended reals.

  Each layer gathers the source node's features along the edges, computes per edge and channel the message
  tanh (h_src · Wx + p_rel · Wp + edge_attr · We + b), sums the messages into their destination nodes, and sums the
  gathered node scores again; the last node states are mean-pooled per graph and passed through a linear head.  The
  kernel computes the message array in blocks of 8000 edges on the vector unit (operands rounded to a narrower float,
  which is the identity on the extended reals; products into zero accumulators); the reference computes it with
  three dot_generals over the whole arrays.  The sums are taken in the same order on both sides, so the two message
  arrays agree entry by entry without any law that would need finite inputs, and every other operation of @main is
  the same host operation in both programs.  Hence the two results, the prediction and the pooled representation,
  are the reference's stages of the same argument arrays.

  The ideal pass rewrote nothing, so the kernel's idealization is its own text read on the extended reals.
-/
import proofs.«125535_j73607149519515_1_alg».proof.Defs
import proofs.«125535_j73607149519515_1_alg».proof.Proof.Gen.Kernel
import proofs.«125535_j73607149519515_1_alg».proof.Proof.Gen.Kernel.Frame
import proofs.«125535_j73607149519515_1_alg».proof.Proof.Gen.KernelIdeal
import proofs.«125535_j73607149519515_1_alg».proof.Proof.Gen.KernelIdeal.Frame
import proofs.«125535_j73607149519515_1_alg».proof.Proof.Gen.ReferenceIdeal
import proofs.«125535_j73607149519515_1_alg».proof.Proof.Gen.Pre_finite_inputs
import proofs.«125535_j73607149519515_1_alg».proof.Proof.Gen.ReferenceIdeal.Run
import proofs.«125535_j73607149519515_1_alg».proof.Proof.Gen.ReferenceIdeal.Read
import proofs.«125535_j73607149519515_1_alg».proof.Proof.KRun
import proofs.«125535_j73607149519515_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the prediction and the pooled representation at the reference's last stages of the
    argument arrays, on which the two memories agree. -/
theorem algebraic : Cert.algebraic_KernelIdeal_ReferenceIdeal := by
  intro m ρ m' ρ' _ hagree
  refine ⟨fun c => Cert.KernelIdeal.Gen.W7 m ρ c (Proc.devRef .tc Cert.KernelIdeal.main_v100),
    fun c => Cert.KernelIdeal.Gen.W7 m ρ c (Proc.devRef .tc Cert.KernelIdeal.main_v96),
    Cert.KernelIdeal.Hand.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18⟩ := hagree c
    refine Eq.trans ?_ (Cert.KernelIdeal.Hand.w7_v100 m ρ c).symm
    rw [Cert.ReferenceIdeal.Read.val_main_v121_eq,
      e0, e1, e2, e3, e4, e5, e6, e7, e8, e9, e10, e11, e12, e13, e14, e15, e16, e17, e18]
  · obtain ⟨e0, e1, e2, e3, e4, e5, e6, e7, e8, e9, e10, e11, e12, e13, e14, e15, e16, e17, e18⟩ := hagree c
    refine Eq.trans ?_ (Cert.KernelIdeal.Hand.w7_v96 m ρ c).symm
    rw [Cert.ReferenceIdeal.Read.val_main_v117_eq,
      e0, e1, e2, e3, e4, e5, e6, e7, e8, e9, e10, e11, e12, e13, e14, e17, e18]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
